-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S2x200000 : Shape := ⟨2, ![2, 200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : IVec S2x200000 32) (main_arg3 : FVec F S64x128 .f32) (main_arg4 : FVec F S128 .f32) (main_arg5 : FVec F S128x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x64 : Shape := ⟨2, ![100000, 64]⟩
abbrev S2x1200000 : Shape := ⟨2, ![2, 1200000]⟩
abbrev S2x200000 : Shape := ⟨2, ![2, 200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x128 : Shape := ⟨2, ![100000, 128]⟩
abbrev S5000x64 : Shape := ⟨2, ![5000, 64]⟩
abbrev S5000x128 : Shape := ⟨2, ![5000, 128]⟩
abbrev S1300000x128 : Shape := ⟨2, ![1300000, 128]⟩
abbrev S1x128 : Shape := ⟨2, ![1, 128]⟩
abbrev S1300000x64 : Shape := ⟨2, ![1300000, 64]⟩
abbrev S1x64 : Shape := ⟨2, ![1, 64]⟩
abbrev S1x200000 : Shape := ⟨2, ![1, 200000]⟩
abbrev S200000 : Shape := ⟨1, ![200000]⟩
abbrev S300000 : Shape := ⟨1, ![300000]⟩
abbrev S300000x1 : Shape := ⟨2, ![300000, 1]⟩
abbrev S300000x128 : Shape := ⟨2, ![300000, 128]⟩
abbrev S300000x64 : Shape := ⟨2, ![300000, 64]⟩
abbrev S5000 : Shape := ⟨1, ![5000]⟩
abbrev S5000x1 : Shape := ⟨2, ![5000, 1]⟩

abbrev nBuf : Space → Nat
  | .hbm => 163
  | .vmem => 40
  | .smem => 0
  | _ => 0

abbrev hbmTy0_0 (i : Nat) : BufTy := match i % 128 with
  | 0 => ⟨S100000x64, .f32⟩
  | 1 => ⟨S2x1200000, .i32⟩
  | 2 => ⟨S2x200000, .i32⟩
  | 3 => ⟨S64x128, .f32⟩
  | 4 => ⟨S128, .f32⟩
  | 5 => ⟨S128x64, .f32⟩
  | 6 => ⟨S64, .f32⟩
  | 7 => ⟨S100000, .i32⟩
  | 8 => ⟨S1x1200000, .i32⟩
  | 9 => ⟨S1200000, .i32⟩
  | 10 => ⟨S1300000, .i32⟩
  | 11 => ⟨S1x1200000, .i32⟩
  | 12 => ⟨S1200000, .i32⟩
  | 13 => ⟨S1300000, .i32⟩
  | 14 => ⟨S_, .f32⟩
  | 15 => ⟨S1300000, .f32⟩
  | 16 => ⟨S_, .f32⟩
  | 17 => ⟨S100000, .f32⟩
  | 18 => ⟨S1300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1300000, .i32⟩
  | 30 => ⟨S1300000, .i1⟩
  | 31 => ⟨S_, .i32⟩
  | 32 => ⟨S1300000, .i32⟩
  | 33 => ⟨S1300000, .i32⟩
  | 34 => ⟨S1300000, .i32⟩
  | 35 => ⟨S1300000x1, .i32⟩
  | 36 => ⟨S1300000, .f32⟩
  | 37 => ⟨S_, .i32⟩
  | 38 => ⟨S1300000, .i32⟩
  | 39 => ⟨S1300000, .i1⟩
  | 40 => ⟨S_, .i32⟩
  | 41 => ⟨S1300000, .i32⟩
  | 42 => ⟨S1300000, .i32⟩
  | 43 => ⟨S1300000, .i32⟩
  | 44 => ⟨S1300000x1, .i32⟩
  | 45 => ⟨S1300000, .f32⟩
  | 46 => ⟨S1300000, .f32⟩
  | 47 => ⟨S100000x128, .f32⟩
  | 48 => ⟨S_, .i32⟩
  | 49 => ⟨S1300000, .i32⟩
  | 50 => ⟨S1300000, .i1⟩
  | 51 => ⟨S_, .i32⟩
  | 52 => ⟨S1300000, .i32⟩
  | 53 => ⟨S1300000, .i32⟩
  | 54 => ⟨S1300000, .i32⟩
  | 55 => ⟨S1300000x1, .i32⟩
  | 56 => ⟨S1300000x128, .f32⟩
  | 57 => ⟨S1300000x1, .f32⟩
  | 58 => ⟨S1300000x128, .f32⟩
  | 59 => ⟨S1300000x128, .f32⟩
  | 60 => ⟨S_, .f32⟩
  | 61 => ⟨S100000x128, .f32⟩
  | 62 => ⟨S1300000x1, .i32⟩
  | 63 => ⟨S100000x128, .f32⟩
  | 64 => ⟨S1x128, .f32⟩
  | 65 => ⟨S100000x128, .f32⟩
  | 66 => ⟨S100000x64, .f32⟩
  | 67 => ⟨S_, .i32⟩
  | 68 => ⟨S1300000, .i32⟩
  | 69 => ⟨S1300000, .i1⟩
  | 70 => ⟨S_, .i32⟩
  | 71 => ⟨S1300000, .i32⟩
  | 72 => ⟨S1300000, .i32⟩
  | 73 => ⟨S1300000, .i32⟩
  | 74 => ⟨S1300000x1, .i32⟩
  | 75 => ⟨S1300000x64, .f32⟩
  | 76 => ⟨S1300000x1, .f32⟩
  | 77 => ⟨S1300000x64, .f32⟩
  | 78 => ⟨S1300000x64, .f32⟩
  | 79 => ⟨S_, .f32⟩
  | 80 => ⟨S100000x64, .f32⟩
  | 81 => ⟨S1300000x1, .i32⟩
  | 82 => ⟨S100000x64, .f32⟩
  | 83 => ⟨S1x64, .f32⟩
  | 84 => ⟨S100000x64, .f32⟩
  | 85 => ⟨S100000, .i32⟩
  | 86 => ⟨S1x200000, .i32⟩
  | 87 => ⟨S200000, .i32⟩
  | 88 => ⟨S300000, .i32⟩
  | 89 => ⟨S1x200000, .i32⟩
  | 90 => ⟨S200000, .i32⟩
  | 91 => ⟨S300000, .i32⟩
  | 92 => ⟨S_, .f32⟩
  | 93 => ⟨S300000, .f32⟩
  | 94 => ⟨S_, .f32⟩
  | 95 => ⟨S100000, .f32⟩
  | 96 => ⟨S300000x1, .i32⟩
  | 97 => ⟨S100000, .f32⟩
  | 98 => ⟨S_, .f32⟩
  | 99 => ⟨S100000, .f32⟩
  | 100 => ⟨S100000, .i1⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S300000, .i32⟩
  | 108 => ⟨S300000, .i1⟩
  | 109 => ⟨S_, .i32⟩
  | 110 => ⟨S300000, .i32⟩
  | 111 => ⟨S300000, .i32⟩
  | 112 => ⟨S300000, .i32⟩
  | 113 => ⟨S300000x1, .i32⟩
  | 114 => ⟨S300000, .f32⟩
  | 115 => ⟨S_, .i32⟩
  | 116 => ⟨S300000, .i32⟩
  | 117 => ⟨S300000, .i1⟩
  | 118 => ⟨S_, .i32⟩
  | 119 => ⟨S300000, .i32⟩
  | 120 => ⟨S300000, .i32⟩
  | 121 => ⟨S300000, .i32⟩
  | 122 => ⟨S300000x1, .i32⟩
  | 123 => ⟨S300000, .f32⟩
  | 124 => ⟨S300000, .f32⟩
  | 125 => ⟨S100000x128, .f32⟩
  | 126 => ⟨S_, .i32⟩
  | 127 => ⟨S300000, .i32⟩
  | _ => ⟨S100000x64, .f32⟩

abbrev hbmTy0_1 (i : Nat) : BufTy := match i % 128 with
  | 0 => ⟨S300000, .i1⟩
  | 1 => ⟨S_, .i32⟩
  | 2 => ⟨S300000, .i32⟩
  | 3 => ⟨S300000, .i32⟩
  | 4 => ⟨S300000, .i32⟩
  | 5 => ⟨S300000x1, .i32⟩
  | 6 => ⟨S300000x128, .f32⟩
  | 7 => ⟨S300000x1, .f32⟩
  | 8 => ⟨S300000x128, .f32⟩
  | 9 => ⟨S300000x128, .f32⟩
  | 10 => ⟨S_, .f32⟩
  | 11 => ⟨S100000x128, .f32⟩
  | 12 => ⟨S300000x1, .i32⟩
  | 13 => ⟨S100000x128, .f32⟩
  | 14 => ⟨S1x128, .f32⟩
  | 15 => ⟨S100000x128, .f32⟩
  | 16 => ⟨S100000x64, .f32⟩
  | 17 => ⟨S_, .i32⟩
  | 18 => ⟨S300000, .i32⟩
  | 19 => ⟨S300000, .i1⟩
  | 20 => ⟨S_, .i32⟩
  | 21 => ⟨S300000, .i32⟩
  | 22 => ⟨S300000, .i32⟩
  | 23 => ⟨S300000, .i32⟩
  | 24 => ⟨S300000x1, .i32⟩
  | 25 => ⟨S300000x64, .f32⟩
  | 26 => ⟨S300000x1, .f32⟩
  | 27 => ⟨S300000x64, .f32⟩
  | 28 => ⟨S300000x64, .f32⟩
  | 29 => ⟨S_, .f32⟩
  | 30 => ⟨S100000x64, .f32⟩
  | 31 => ⟨S300000x1, .i32⟩
  | 32 => ⟨S100000x64, .f32⟩
  | 33 => ⟨S1x64, .f32⟩
  | 34 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_call1_v0 : Ref sig .tc := ⟨.hbm, 103, rfl⟩
abbrev main_call1_v1 : Ref sig .tc := ⟨.hbm, 104, rfl⟩
abbrev main_v76 : Ref sig .tc := ⟨.hbm, 105, rfl⟩
abbrev main_c_16 : Ref sig .tc := ⟨.hbm, 106, rfl⟩
abbrev main_v77 : Ref sig .tc := ⟨.hbm, 107, rfl⟩
abbrev main_v78 : Ref sig .tc := ⟨.hbm, 108, rfl⟩
abbrev main_c_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_v85 : Ref sig .tc := ⟨.hbm, 117, rfl⟩
abbrev main_c_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_20 : Ref sig .tc := ⟨.hbm, 126, rfl⟩
abbrev main_v93 : Ref sig .tc := ⟨.hbm, 127, rfl⟩
abbrev main_v94 : Ref sig .tc := ⟨.hbm, 128, rfl⟩
abbrev main_c_21 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_22 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_23 : Ref sig .tc := ⟨.hbm, 145, rfl⟩
abbrev main_v109 : Ref sig .tc := ⟨.hbm, 146, rfl⟩
abbrev main_v110 : Ref sig .tc := ⟨.hbm, 147, rfl⟩
abbrev main_c_24 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_25 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1300000x1_S1300000x128_0_1 : S1300000x1.BroadcastsInDim S1300000x128 (![0, 1] : Fin 2 → Fin S1300000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  concatenates_S200000_S100000_S300000_d0 : Shape.Concatenates [S200000, S100000] S300000 0
  slices_S2x200000_S1x200000_1_0 : S2x200000.Slices ![1, 0] S1x200000
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S300000x1_S300000x64_0_1 : S300000x1.BroadcastsInDim S300000x64 (![0, 1] : Fin 2 → Fin S300000x64.rank)
  reduces_S5000x64_S5000 : S5000x64.Reduces [1] S5000
  shapeCasts_S5000_S5000x1 : S5000.ShapeCasts S5000x1
  broadcasts_S5000x1_S5000x64 : S5000x1.Broadcasts S5000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S5000x64_S64x128_S5000x128_1_0_0_1_n_n_wf : DotDims.WF S5000x64 S64x128 S5000x128 [1] [0] [0] [1] [] []
  gather_S100000x128_S1300000x1_S1300000x128_1_0_n_n_0_1_1128_wf : GatherDims.WF S100000x128 S1300000x1 S1300000x128 [1] [0] [] [0] [] 1 ![1, 128]
  scatter_S100000x128_S1300000x1_S1300000x128_1_0_0_1_wf : ScatterDims.WF S100000x128 S1300000x1 S1300000x128 [1] [0] [0] 1
  dot_S5000x128_S128x64_S5000x64_1_0_0_1_n_n_wf : DotDims.WF S5000x128 S128x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S100000_S300000x1_S300000_n_0_0_1_wf : ScatterDims.WF S100000 S300000x1 S300000 [] [0] [0] 1
  gather_S100000_S300000x1_S300000_n_0_n_n_0_1_1_wf : GatherDims.WF S100000 S300000x1 S300000 [] [0] [] [0] [] 1 ![1]
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  gather_S100000x64_S300000x1_S300000x64_1_0_n_n_0_1_164_wf : GatherDims.WF S100000x64 S300000x1 S300000x64 [1] [0] [] [0] [] 1 ![1, 64]
  scatter_S100000x64_S300000x1_S300000x64_1_0_0_1_wf : ScatterDims.WF S100000x64 S300000x1 S300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1300000x1_S1300000x128_1_0_n_n_0_1_1128 : GatherDims S100000x128 S1300000x1 S1300000x128 where
  offsetDims := [1]
  collapsedSliceDims := [0]
  operandBatchingDims := []
  startIndicesBatchingDims := []
  startIndexMap := [0]
  indexVectorDim := 1
  sliceSizes := ![1, 128]
  wf := gather_S100000x128_S1300000x1_S1300000x128_1_0_n_n_0_1_1128_wf
def scatter_S100000x128_S1300000x1_S1300000x128_1_0_0_1 : ScatterDims S100000x128 S1300000x1 S1300000x128 where
  updateWindowDims := [1]
  insertedWindowDims := [0]
  scatterDimsToOperandDims := [0]
  indexVectorDim := 1
  wf := scatter_S100000x128_S1300000x1_S1300000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v105) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v107) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v107) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v108) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v121) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v122) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v123) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S2x200000 : Shape := ⟨2, ![2, 200000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x128 : Shape := ⟨2, ![100000, 128]⟩
abbrev S1300000x128 : Shape := ⟨2, ![1300000, 128]⟩
abbrev S1x128 : Shape := ⟨2, ![1, 128]⟩
abbrev S1300000x64 : Shape := ⟨2, ![1300000, 64]⟩
abbrev S1x64 : Shape := ⟨2, ![1, 64]⟩
abbrev S1x200000 : Shape := ⟨2, ![1, 200000]⟩
abbrev S200000 : Shape := ⟨1, ![200000]⟩
abbrev S300000 : Shape := ⟨1, ![300000]⟩
abbrev S300000x1 : Shape := ⟨2, ![300000, 1]⟩
abbrev S300000x128 : Shape := ⟨2, ![300000, 128]⟩
abbrev S300000x64 : Shape := ⟨2, ![300000, 64]⟩
abbrev S100000x1 : Shape := ⟨2, ![100000, 1]⟩

abbrev nBuf : Space → Nat
  | .hbm => 268
  | .vmem => 0
  | .smem => 0
  | _ => 0

abbrev hbmTy0_0 (i : Nat) : BufTy := match i % 128 with
  | 0 => ⟨S100000x64, .f32⟩
  | 1 => ⟨S2x1200000, .i32⟩
  | 2 => ⟨S2x200000, .i32⟩
  | 3 => ⟨S64x128, .f32⟩
  | 4 => ⟨S128, .f32⟩
  | 5 => ⟨S128x64, .f32⟩
  | 6 => ⟨S64, .f32⟩
  | 7 => ⟨S100000, .i32⟩
  | 8 => ⟨S1x1200000, .i32⟩
  | 9 => ⟨S1200000, .i32⟩
  | 10 => ⟨S1300000, .i32⟩
  | 11 => ⟨S1x1200000, .i32⟩
  | 12 => ⟨S1200000, .i32⟩
  | 13 => ⟨S1300000, .i32⟩
  | 14 => ⟨S_, .f32⟩
  | 15 => ⟨S1300000, .f32⟩
  | 16 => ⟨S_, .f32⟩
  | 17 => ⟨S100000, .f32⟩
  | 18 => ⟨S1300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1300000, .i32⟩
  | 30 => ⟨S1300000, .i1⟩
  | 31 => ⟨S_, .i32⟩
  | 32 => ⟨S1300000, .i32⟩
  | 33 => ⟨S1300000, .i32⟩
  | 34 => ⟨S1300000, .i32⟩
  | 35 => ⟨S1300000x1, .i32⟩
  | 36 => ⟨S1300000, .f32⟩
  | 37 => ⟨S_, .i32⟩
  | 38 => ⟨S1300000, .i32⟩
  | 39 => ⟨S1300000, .i1⟩
  | 40 => ⟨S_, .i32⟩
  | 41 => ⟨S1300000, .i32⟩
  | 42 => ⟨S1300000, .i32⟩
  | 43 => ⟨S1300000, .i32⟩
  | 44 => ⟨S1300000x1, .i32⟩
  | 45 => ⟨S1300000, .f32⟩
  | 46 => ⟨S1300000, .f32⟩
  | 47 => ⟨S100000x128, .f32⟩
  | 48 => ⟨S_, .i32⟩
  | 49 => ⟨S1300000, .i32⟩
  | 50 => ⟨S1300000, .i1⟩
  | 51 => ⟨S_, .i32⟩
  | 52 => ⟨S1300000, .i32⟩
  | 53 => ⟨S1300000, .i32⟩
  | 54 => ⟨S1300000, .i32⟩
  | 55 => ⟨S1300000x1, .i32⟩
  | 56 => ⟨S1300000x128, .f32⟩
  | 57 => ⟨S1300000x1, .f32⟩
  | 58 => ⟨S1300000x128, .f32⟩
  | 59 => ⟨S1300000x128, .f32⟩
  | 60 => ⟨S_, .f32⟩
  | 61 => ⟨S100000x128, .f32⟩
  | 62 => ⟨S1300000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000, .i32⟩
  | 71 => ⟨S1x1200000, .i32⟩
  | 72 => ⟨S1200000, .i32⟩
  | 73 => ⟨S1300000, .i32⟩
  | 74 => ⟨S1x1200000, .i32⟩
  | 75 => ⟨S1200000, .i32⟩
  | 76 => ⟨S1300000, .i32⟩
  | 77 => ⟨S_, .f32⟩
  | 78 => ⟨S1300000, .f32⟩
  | 79 => ⟨S_, .f32⟩
  | 80 => ⟨S100000, .f32⟩
  | 81 => ⟨S1300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1300000, .i32⟩
  | 93 => ⟨S1300000, .i1⟩
  | 94 => ⟨S_, .i32⟩
  | 95 => ⟨S1300000, .i32⟩
  | 96 => ⟨S1300000, .i32⟩
  | 97 => ⟨S1300000, .i32⟩
  | 98 => ⟨S1300000x1, .i32⟩
  | 99 => ⟨S1300000, .f32⟩
  | 100 => ⟨S_, .i32⟩
  | 101 => ⟨S1300000, .i32⟩
  | 102 => ⟨S1300000, .i1⟩
  | 103 => ⟨S_, .i32⟩
  | 104 => ⟨S1300000, .i32⟩
  | 105 => ⟨S1300000, .i32⟩
  | 106 => ⟨S1300000, .i32⟩
  | 107 => ⟨S1300000x1, .i32⟩
  | 108 => ⟨S1300000, .f32⟩
  | 109 => ⟨S1300000, .f32⟩
  | 110 => ⟨S100000x64, .f32⟩
  | 111 => ⟨S_, .i32⟩
  | 112 => ⟨S1300000, .i32⟩
  | 113 => ⟨S1300000, .i1⟩
  | 114 => ⟨S_, .i32⟩
  | 115 => ⟨S1300000, .i32⟩
  | 116 => ⟨S1300000, .i32⟩
  | 117 => ⟨S1300000, .i32⟩
  | 118 => ⟨S1300000x1, .i32⟩
  | 119 => ⟨S1300000x64, .f32⟩
  | 120 => ⟨S1300000x1, .f32⟩
  | 121 => ⟨S1300000x64, .f32⟩
  | 122 => ⟨S1300000x64, .f32⟩
  | 123 => ⟨S_, .f32⟩
  | 124 => ⟨S100000x64, .f32⟩
  | 125 => ⟨S1300000x1, .i32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S100000, .i32⟩
  | 3 => ⟨S1x200000, .i32⟩
  | 4 => ⟨S200000, .i32⟩
  | 5 => ⟨S300000, .i32⟩
  | 6 => ⟨S1x200000, .i32⟩
  | 7 => ⟨S200000, .i32⟩
  | 8 => ⟨S300000, .i32⟩
  | 9 => ⟨S_, .f32⟩
  | 10 => ⟨S300000, .f32⟩
  | 11 => ⟨S_, .f32⟩
  | 12 => ⟨S100000, .f32⟩
  | 13 => ⟨S300000x1, .i32⟩
  | 14 => ⟨S100000, .f32⟩
  | 15 => ⟨S_, .f32⟩
  | 16 => ⟨S100000, .f32⟩
  | 17 => ⟨S100000, .i1⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S300000, .f32⟩
  | 32 => ⟨S_, .i32⟩
  | 33 => ⟨S300000, .i32⟩
  | 34 => ⟨S300000, .i1⟩
  | 35 => ⟨S_, .i32⟩
  | 36 => ⟨S300000, .i32⟩
  | 37 => ⟨S300000, .i32⟩
  | 38 => ⟨S300000, .i32⟩
  | 39 => ⟨S300000x1, .i32⟩
  | 40 => ⟨S300000, .f32⟩
  | 41 => ⟨S300000, .f32⟩
  | 42 => ⟨S100000x128, .f32⟩
  | 43 => ⟨S_, .i32⟩
  | 44 => ⟨S300000, .i32⟩
  | 45 => ⟨S300000, .i1⟩
  | 46 => ⟨S_, .i32⟩
  | 47 => ⟨S300000, .i32⟩
  | 48 => ⟨S300000, .i32⟩
  | 49 => ⟨S300000, .i32⟩
  | 50 => ⟨S300000x1, .i32⟩
  | 51 => ⟨S300000x128, .f32⟩
  | 52 => ⟨S300000x1, .f32⟩
  | 53 => ⟨S300000x128, .f32⟩
  | 54 => ⟨S300000x128, .f32⟩
  | 55 => ⟨S_, .f32⟩
  | 56 => ⟨S100000x128, .f32⟩
  | 57 => ⟨S300000x1, .i32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000, .i32⟩
  | 66 => ⟨S1x200000, .i32⟩
  | 67 => ⟨S200000, .i32⟩
  | 68 => ⟨S300000, .i32⟩
  | 69 => ⟨S1x200000, .i32⟩
  | 70 => ⟨S200000, .i32⟩
  | 71 => ⟨S300000, .i32⟩
  | 72 => ⟨S_, .f32⟩
  | 73 => ⟨S300000, .f32⟩
  | 74 => ⟨S_, .f32⟩
  | 75 => ⟨S100000, .f32⟩
  | 76 => ⟨S300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S300000, .f32⟩
  | 95 => ⟨S_, .i32⟩
  | 96 => ⟨S300000, .i32⟩
  | 97 => ⟨S300000, .i1⟩
  | 98 => ⟨S_, .i32⟩
  | 99 => ⟨S300000, .i32⟩
  | 100 => ⟨S300000, .i32⟩
  | 101 => ⟨S300000, .i32⟩
  | 102 => ⟨S300000x1, .i32⟩
  | 103 => ⟨S300000, .f32⟩
  | 104 => ⟨S300000, .f32⟩
  | 105 => ⟨S100000x64, .f32⟩
  | 106 => ⟨S_, .i32⟩
  | 107 => ⟨S300000, .i32⟩
  | 108 => ⟨S300000, .i1⟩
  | 109 => ⟨S_, .i32⟩
  | 110 => ⟨S300000, .i32⟩
  | 111 => ⟨S300000, .i32⟩
  | 112 => ⟨S300000, .i32⟩
  | 113 => ⟨S300000x1, .i32⟩
  | 114 => ⟨S300000x64, .f32⟩
  | 115 => ⟨S300000x1, .f32⟩
  | 116 => ⟨S300000x64, .f32⟩
  | 117 => ⟨S300000x64, .f32⟩
  | 118 => ⟨S_, .f32⟩
  | 119 => ⟨S100000x64, .f32⟩
  | 120 => ⟨S300000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000, .f32⟩
  | 127 => ⟨S_, .f32⟩
  | _ => ⟨S100000x64, .f32⟩

abbrev hbmTy0_2 (i : Nat) : BufTy := match i % 128 with
  | 0 => ⟨S100000, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S_, .f32⟩
  | 7 => ⟨S100000, .f32⟩
  | 8 => ⟨S100000x1, .f32⟩
  | 9 => ⟨S100000x1, .f32⟩
  | 10 => ⟨S100000x64, .f32⟩
  | 11 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_22 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_23 : Ref sig .tc := ⟨.hbm, 147, rfl⟩
abbrev main_call3_v0 : Ref sig .tc := ⟨.hbm, 148, rfl⟩
abbrev main_call3_v1 : Ref sig .tc := ⟨.hbm, 149, rfl⟩
abbrev main_v109 : Ref sig .tc := ⟨.hbm, 150, rfl⟩
abbrev main_c_24 : Ref sig .tc := ⟨.hbm, 151, rfl⟩
abbrev main_v110 : Ref sig .tc := ⟨.hbm, 152, rfl⟩
abbrev main_v111 : Ref sig .tc := ⟨.hbm, 153, rfl⟩
abbrev main_c_25 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_26 : Ref sig .tc := ⟨.hbm, 160, rfl⟩
abbrev main_v117 : Ref sig .tc := ⟨.hbm, 161, rfl⟩
abbrev main_v118 : Ref sig .tc := ⟨.hbm, 162, rfl⟩
abbrev main_c_27 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_c_28 : Ref sig .tc := ⟨.hbm, 171, rfl⟩
abbrev main_v126 : Ref sig .tc := ⟨.hbm, 172, rfl⟩
abbrev main_v127 : Ref sig .tc := ⟨.hbm, 173, rfl⟩
abbrev main_c_29 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_30 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_call4_cst : Ref sig .tc := ⟨.hbm, 190, rfl⟩
abbrev main_call4_v0 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_31 : Ref sig .tc := ⟨.hbm, 200, rfl⟩
abbrev main_v150 : Ref sig .tc := ⟨.hbm, 201, rfl⟩
abbrev main_cst_32 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_33 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_cst_34 : Ref sig .tc := ⟨.hbm, 210, rfl⟩
abbrev main_call5_v0 : Ref sig .tc := ⟨.hbm, 211, rfl⟩
abbrev main_call5_v1 : Ref sig .tc := ⟨.hbm, 212, rfl⟩
abbrev main_v157 : Ref sig .tc := ⟨.hbm, 213, rfl⟩
abbrev main_c_35 : Ref sig .tc := ⟨.hbm, 214, rfl⟩
abbrev main_v158 : Ref sig .tc := ⟨.hbm, 215, rfl⟩
abbrev main_v159 : Ref sig .tc := ⟨.hbm, 216, rfl⟩
abbrev main_c_36 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_c_37 : Ref sig .tc := ⟨.hbm, 223, rfl⟩
abbrev main_v165 : Ref sig .tc := ⟨.hbm, 224, rfl⟩
abbrev main_v166 : Ref sig .tc := ⟨.hbm, 225, rfl⟩
abbrev main_c_38 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_c_39 : Ref sig .tc := ⟨.hbm, 234, rfl⟩
abbrev main_v174 : Ref sig .tc := ⟨.hbm, 235, rfl⟩
abbrev main_v175 : Ref sig .tc := ⟨.hbm, 236, rfl⟩
abbrev main_c_40 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_cst_41 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_call6_cst : Ref sig .tc := ⟨.hbm, 253, rfl⟩
abbrev main_call6_v0 : Ref sig .tc := ⟨.hbm, 254, rfl⟩
abbrev main_call6_cst_0 : Ref sig .tc := ⟨.hbm, 255, rfl⟩
abbrev main_call6_v1 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_call6_v5 : Ref sig .tc := ⟨.hbm, 260, rfl⟩
abbrev main_call6_v6 : Ref sig .tc := ⟨.hbm, 261, rfl⟩
abbrev main_call6_cst_1 : Ref sig .tc := ⟨.hbm, 262, rfl⟩
abbrev main_call6_v7 : Ref sig .tc := ⟨.hbm, 263, rfl⟩
abbrev main_call6_v8 : Ref sig .tc := ⟨.hbm, 264, rfl⟩
abbrev main_call6_v9 : Ref sig .tc := ⟨.hbm, 265, rfl⟩
abbrev main_call6_v10 : Ref sig .tc := ⟨.hbm, 266, rfl⟩
abbrev main_v190 : Ref sig .tc := ⟨.hbm, 267, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x128_0_1 : S1300000x1.BroadcastsInDim S1300000x128 (![0, 1] : Fin 2 → Fin S1300000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  concatenates_S200000_S100000_S300000_d0 : Shape.Concatenates [S200000, S100000] S300000 0
  slices_S2x200000_S1x200000_1_0 : S2x200000.Slices ![1, 0] S1x200000
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S300000x1_S300000x64_0_1 : S300000x1.BroadcastsInDim S300000x64 (![0, 1] : Fin 2 → Fin S300000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x128_S100000x128_1_0_0_1_n_n_wf : DotDims.WF S100000x64 S64x128 S100000x128 [1] [0] [0] [1] [] []
  gather_S100000x128_S1300000x1_S1300000x128_1_0_n_n_0_1_1128_wf : GatherDims.WF S100000x128 S1300000x1 S1300000x128 [1] [0] [] [0] [] 1 ![1, 128]
  scatter_S100000x128_S1300000x1_S1300000x128_1_0_0_1_wf : ScatterDims.WF S100000x128 S1300000x1 S1300000x128 [1] [0] [0] 1
  dot_S100000x128_S128x64_S100000x64_1_0_0_1_n_n_wf : DotDims.WF S100000x128 S128x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S100000_S300000x1_S300000_n_0_0_1_wf : ScatterDims.WF S100000 S300000x1 S300000 [] [0] [0] 1
  gather_S100000_S300000x1_S300000_n_0_n_n_0_1_1_wf : GatherDims.WF S100000 S300000x1 S300000 [] [0] [] [0] [] 1 ![1]
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  gather_S100000x64_S300000x1_S300000x64_1_0_n_n_0_1_164_wf : GatherDims.WF S100000x64 S300000x1 S300000x64 [1] [0] [] [0] [] 1 ![1, 64]
  scatter_S100000x64_S300000x1_S300000x64_1_0_0_1_wf : ScatterDims.WF S100000x64 S300000x1 S300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1300000x1_S1300000x128_1_0_n_n_0_1_1128 : GatherDims S100000x128 S1300000x1 S1300000x128 where
  offsetDims := [1]
  collapsedSliceDims := [0]
  operandBatchingDims := []
  startIndicesBatchingDims := []
  startIndexMap := [0]
  indexVectorDim := 1
  sliceSizes := ![1, 128]
  wf := gather_S100000x128_S1300000x1_S1300000x128_1_0_n_n_0_1_1128_wf
def scatter_S100000x128_S1300000x1_S1300000x128_1_0_0_1 : ScatterDims S100000x128 S1300000x1 S1300000x128 where
  updateWindowDims := [1]
  insertedWindowDims := [0]
  scatterDimsToOperandDims := [0]
  indexVectorDim := 1
  wf := scatter_S100000x128_S1300000x1_S1300000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def scatter_S100000x64_S300000x1_S300000x64_1_0_0_1 : ScatterDims S100000x64 S300000x1 S300000x64 where
  updateWindowDims := [1]
  insertedWindowDims := [0]
  scatterDimsToOperandDims := [0]
  indexVectorDim := 1
  wf := scatter_S100000x64_S300000x1_S300000x64_1_0_0_1_wf

class Facts : Prop extends Facts₀ where

variable [Facts]
-- ==== Proof.KRun.lean ====
/-
  The idealized kernel's run with its result named: from any memory with zero counters every weakly fair execution
  of the program ends, nothing faulting, with the result array at the last segment boundary's contents of that array
  and every argument array as launched. The boundary contents are the fold of the host stretches and the eight
  grids' write-backs from the launch memory; the modules beside this one read that fold as a function of the arguments.
-/
import proofs.«117535_j49795850830444_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read at the last boundary. -/
theorem run_result : θ_run defs (onTc (τ := τ) (main (F := F))) ⟨m, fun _ => 0, ρ⟩ (fun r => ∀ c : Dev nD,
      r.2.mem ((c.tc : Thread nD τ).loc main_v123) = W18 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v123 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c)⟩)

end Cert.KernelIdeal.GcnRun

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.LibHostDot.lean ====
/-
  A general fact, at the exact instance (floats as extended reals): the host's product of an [M, K] matrix by a
  [K, N] matrix contracted over K, read at (p, q), is the sum over k of x(p, k) · w(k, q); and a vector broadcast
  first to one row [1, N] and then down the rows to [M, N] (the host's two `broadcast_in_dim`s of a bias) reads, at
  (p, q), the vector at q; a scalar broadcast to [M, N] reads the scalar everywhere.
-/
import Idealize.ShloMosaic.PureOps.Ideal.Laws
import Idealize.ShloMosaic.Lib.ValueIdx
import Idealize.ShloMosaic.Lib.Pipeline.Value

noncomputable section

namespace Cert.LibHostDot

open Idealize.ShloMosaic Idealize.ShloMosaic.ValueIdx

variable {α : Type} {M K N : Nat}

/-- The host's product of an [M, K] by a [K, N] matrix, read at (p, q): the sum over the contracted coordinate k of
    x(p, k) · w(k, q). The four hypotheses say which operand coordinate each of the product's index maps takes from
    the output index and which from the contraction index. -/
theorem dotGeneral_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    Host.dotGeneral D prec x w (ix2 p q) = ∑ k : Fin K, x (ix2 p k) * w (ix2 k q) := by
  refine (Ideal.dotGeneral_apply D prec .single x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector broadcast to one row [1, N] and then down the rows to [M, N] reads, at (p, q), the vector at q
    (N is not 1: the vector's axis is a real axis). -/
theorem rowBroadcastInDim_rc (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => show 0 = if (1 : Nat) = 1 then 0 else p.val; rw [if_pos rfl]
    | ⟨1, _⟩ => show q.val = if N = 1 then 0 else q.val; rw [if_neg hN]
  · match a with
    | ⟨0, _⟩ => show q.val = if N = 1 then 0 else q.val; rw [if_neg hN]

/-- A scalar broadcast to any shape reads the scalar at every index. -/
theorem scalarBroadcastInDim_apply {t : Shape} (h : (⟨0, ![]⟩ : Shape).BroadcastsInDim t (![] : Fin 0 → Fin t.rank))
    (x : (⟨0, ![]⟩ : Shape).Idx → α) (j : t.Idx) (u : (⟨0, ![]⟩ : Shape).Idx) :
    broadcastInDim t ![] h x j = x u :=
  broadcastInDim_apply ![] h x j u fun a => a.elim0

end Cert.LibHostDot

end
-- ==== Proof.Spec.lean ====
/-
  What the dense stages of a graph convolution compute, as functions of whole arrays at the exact instance (floats as
  extended reals): a matrix product, a bias added to every row, the rectifier, and the row-wise logarithm of a softmax;
  and the host's spellings of the last three (two broadcasts of the bias, a maximum against a broadcast zero, the
  reduce-max / exponential / reduce-sum / logarithm chain) read as those functions.
-/
import proofs.«117535_j49795850830444_1_alg».proof.Proof.LibDense
import proofs.«117535_j49795850830444_1_alg».proof.Proof.LibHostDot

noncomputable section

namespace Cert.Gcn

open Idealize.ShloMosaic Idealize.ShloMosaic.ValueIdx Cert.LibDense

variable {M K N : Nat}

/-- The row and the column of a matrix index. -/
def rowOf (i : (⟨2, ![M, N]⟩ : Shape).Idx) : Fin M := ⟨(i 0).val, (i 0).isLt⟩
def colOf (i : (⟨2, ![M, N]⟩ : Shape).Idx) : Fin N := ⟨(i 1).val, (i 1).isLt⟩

/-- The matrix product: entry (p, q) is the sum over k of x(p, k) · w(k, q). -/
def mm (x : (⟨2, ![M, K]⟩ : Shape).Idx → EReal) (w : (⟨2, ![K, N]⟩ : Shape).Idx → EReal) :
    (⟨2, ![M, N]⟩ : Shape).Idx → EReal :=
  fun i => ∑ k : Fin K, x (ix2 (rowOf i) k) * w (ix2 k (colOf i))

theorem mm_apply (x : (⟨2, ![M, K]⟩ : Shape).Idx → EReal) (w : (⟨2, ![K, N]⟩ : Shape).Idx → EReal) (p : Fin M) (q : Fin N) :
    mm x w (ix2 p q) = ∑ k : Fin K, x (ix2 p k) * w (ix2 k q) := rfl

/-- A bias vector added to every row. -/
def bias (x : (⟨2, ![M, N]⟩ : Shape).Idx → EReal) (b : (⟨1, ![N]⟩ : Shape).Idx → EReal) :
    (⟨2, ![M, N]⟩ : Shape).Idx → EReal :=
  fun i => x i + b (ix1 (colOf i))

theorem bias_apply (x : (⟨2, ![M, N]⟩ : Shape).Idx → EReal) (b : (⟨1, ![N]⟩ : Shape).Idx → EReal) (p : Fin M) (q : Fin N) :
    bias x b (ix2 p q) = x (ix2 p q) + b (ix1 q) := rfl

/-- The same with the bias held as a one-row matrix. -/
def biasRow (x : (⟨2, ![M, N]⟩ : Shape).Idx → EReal) (b : (⟨2, ![1, N]⟩ : Shape).Idx → EReal) :
    (⟨2, ![M, N]⟩ : Shape).Idx → EReal :=
  fun i => x i + b (ix2 (0 : Fin 1) (colOf i))

theorem biasRow_apply (x : (⟨2, ![M, N]⟩ : Shape).Idx → EReal) (b : (⟨2, ![1, N]⟩ : Shape).Idx → EReal) (p : Fin M) (q : Fin N) :
    biasRow x b (ix2 p q) = x (ix2 p q) + b (ix2 (0 : Fin 1) q) := rfl

/-- A vector cast to one row is the vector: the two bias forms agree. -/
theorem biasRow_shapeCast (x : (⟨2, ![M, N]⟩ : Shape).Idx → EReal) (b : (⟨1, ![N]⟩ : Shape).Idx → EReal)
    (h : (⟨1, ![N]⟩ : Shape).ShapeCasts ⟨2, ![1, N]⟩) :
    biasRow x (shapeCast ⟨2, ![1, N]⟩ b h) = bias x b := by
  funext i
  show x i + shapeCast ⟨2, ![1, N]⟩ b h (ix2 (0 : Fin 1) (colOf i)) = x i + b (ix1 (colOf i))
  rw [shapeCast_a_1a_apply b h 0 (colOf i)]

/-- The rectifier: the larger of the entry and the zero word's value. -/
def relu (v : (⟨2, ![M, N]⟩ : Shape).Idx → EReal) : (⟨2, ![M, N]⟩ : Shape).Idx → EReal :=
  fun i => max (v i) zeroWord

/-- A row's largest entry as a fold of max from minus infinity's word. -/
def top (l : Fin N → EReal) : EReal := (Finset.univ : Finset (Fin N)).fold max negInfWord l

theorem max_negInf_top (l : Fin N → EReal) : max negInfWord (top l) = top l :=
  max_eq_right (by unfold top; exact (Finset.le_fold_max negInfWord).mpr (Or.inl le_rfl))

/-- The logarithm of a row softmax: each entry less the row's largest, less the logarithm of the sum of the
    exponentials of those differences. -/
def lsm (v : (⟨2, ![M, N]⟩ : Shape).Idx → EReal) : (⟨2, ![M, N]⟩ : Shape).Idx → EReal :=
  fun i => (v i - top (fun u => v (ix2 (rowOf i) u)))
    - Ideal.log (∑ u : Fin N, Ideal.exp (v (ix2 (rowOf i) u) - top (fun u' => v (ix2 (rowOf i) u'))))

theorem lsm_apply (v : (⟨2, ![M, N]⟩ : Shape).Idx → EReal) (p : Fin M) (q : Fin N) :
    lsm v (ix2 p q) = (v (ix2 p q) - top (fun u => v (ix2 p u)))
      - Ideal.log (∑ u : Fin N, Ideal.exp (v (ix2 p u) - top (fun u' => v (ix2 p u')))) := rfl

/-! ## The host's spellings -/

/-- The host adds a bias by broadcasting it to one row and then down the rows. -/
theorem host_bias (hN : N ≠ 1) (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf a (broadcastInDim ⟨2, ![M, N]⟩ ![0, 1] h2 (broadcastInDim ⟨2, ![1, N]⟩ ![1] h1 b)) = bias a b := by
  funext i
  obtain ⟨p, q, rfl⟩ : ∃ (p : Fin M) (q : Fin N), i = ix2 p q := ⟨i 0, i 1, eq_ix2 i⟩
  rw [addf_apply, Cert.LibHostDot.rowBroadcastInDim_rc hN b h1 h2 p q]
  rfl

/-- The host's rectifier: the maximum against the zero word broadcast everywhere. -/
theorem host_relu (v : FVec Ideal ⟨2, ![M, N]⟩ .f32)
    (h0 : (⟨0, ![]⟩ : Shape).BroadcastsInDim ⟨2, ![M, N]⟩ (![] : Fin 0 → Fin 2)) :
    maximumf v (broadcastInDim ⟨2, ![M, N]⟩ ![] h0 (constant (F := Ideal) ⟨0, ![]⟩ .f32 0x00000000#32)) = relu v := by
  funext i
  rw [maximumf_apply, Cert.LibHostDot.scalarBroadcastInDim_apply h0 _ i ix0]
  rfl

end Cert.Gcn

end
-- ==== Proof.Region0.lean ====
/-
  Grid 0 of the idealized kernel is a matrix product tiled over the rows: each of its twenty points multiplies a
  block of 5000 rows of the left operand by the whole right operand, and the blocks tile the result. Read at the
  exact instance the result array is the product of the two operand arrays as the grid finds them, entry by entry
  (the roundings to bf16 on the way into the product are the identity on extended reals).
-/
import proofs.«117535_j49795850830444_1_alg».proof.Proof.Gen.KernelIdeal.Frame
import proofs.«117535_j49795850830444_1_alg».proof.Proof.Spec

set_option maxRecDepth 16384

noncomputable section

namespace Cert.KernelIdeal.Gcn0

open Cert.KernelIdeal Cert.KernelIdeal.Gen
open Idealize.ShloMosaic Idealize.ShloMosaic.TcCoe Idealize.SL.Sem
open Idealize.ShloMosaic.ValueIdx Cert.Gcn Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block product's index maps, coordinate by coordinate -/

theorem dl0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dl1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem dr0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem dr1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The body's value at (p, q): the sum over k of the row block's (p, k) times the right operand's (k, q). -/
theorem pay (x0 : Vec Ideal S5000x64 .f32) (x1 : Vec Ideal S64x128 .f32) (p : Fin 5000) (q : Fin 128) :
    k0_pay1 x0 x1 (ix2 p q) = ∑ k : Fin 64, x0 (ix2 p k) * x1 (ix2 k q) := by
  unfold k0_pay1
  exact matmul_zero_rc (M := 5000) (K := 64) (N := 128) dot_S5000x64_S64x128_S5000x128_1_0_0_1_n_n rfl rfl dl0 dl1 dr0 dr1 none _ _ p q

/-- A block's entry is the whole product's entry when the block's row p is the array's row r and the right operand is
    held whole. -/
theorem block_eq (x0 : Vec Ideal S5000x64 .f32) (x1 : Vec Ideal S64x128 .f32)
    (A : (⟨2, ![100000, 64]⟩ : Shape).Idx → EReal) (W : (⟨2, ![64, 128]⟩ : Shape).Idx → EReal)
    (y : S5000x128.Idx) (i : S100000x128.Idx)
    (h0 : ∀ k : Fin 64, x0 (ix2 (⟨(y 0).val, (y 0).isLt⟩ : Fin 5000) k) = A (ix2 (⟨(i 0).val, (i 0).isLt⟩ : Fin 100000) k))
    (h1 : ∀ j : S64x128.Idx, x1 j = W j) (hq : (i 1).val = (y 1).val) :
    k0_pay1 x0 x1 y = mm A W i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hq
  have h0' : ∀ k : Fin 64, x0 (ix2 p k) = A (ix2 r k) := h0
  rw [pay, mm_apply]
  exact Finset.sum_congr rfl fun k _ => by rw [h0' k, h1]

/-! ## From the blocks to the array -/

/-- The printed index maps over the twenty points: the left operand's and the result's blocks are the point's own
    block of rows, the right operand's is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the operand arrays as the grid finds them. -/
theorem flushed_eq (c : Dev nD) (t : Fin cfg0.N) :
    (dat0 V c).flushed 2 t = ((cfg0.win 2).blk t).view.read (Elt Ideal)
      (mm (M := 100000) (K := 64) (N := 128) (V c main_arg0) (V c main_arg3)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x128) hz]
  obtain ⟨e0, e1, e2, e3, e4, e5⟩ := idx_facts t
  funext j
  show k0_pay1 (iblk0 V c 0 t) (iblk0 V c 1 t) j
    = mm (M := 100000) (K := 64) (N := 128) (V c main_arg0) (V c main_arg3) (((cfg0.win 2).blk t).view.emb j)
  refine block_eq (iblk0 V c 0 t) (iblk0 V c 1 t) (V c main_arg0) (V c main_arg3) j _ (fun k => ?_) (fun y => ?_) ?_
  · show V c main_arg0 (((cfg0.win 0).blk t).view.emb _) = V c main_arg0 _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 64 + 1 * k.val = k.val
      omega
  · show V c main_arg3 (((cfg0.win 1).blk t).view.emb y) = V c main_arg3 y
    refine congrArg (V c main_arg3) (funext fun a => Fin.ext ?_)
    match a with
    | ⟨0, _⟩ =>
      show win0_1.index t (0 : Fin 2) * 64 + 1 * (y 0).val = (y 0).val
      omega
    | ⟨1, _⟩ =>
      show win0_1.index t (1 : Fin 2) * 128 + 1 * (y 1).val = (y 1).val
      omega
  · show win0_2.index t (1 : Fin 2) * 128 + 1 * (j 1).val = (j 1).val
    omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every row of the result is in the block of the point numbered by the row's quotient by 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by show (i 0).val / 5000 < 20; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]
    omega

/-- The result array after the grid: the product of the operand arrays as the grid finds them. -/
theorem arr (c : Dev nD) :
    (dat0 V c).arrAt 2 cfg0.N = mm (M := 100000) (K := 64) (N := 128) (V c main_arg0) (V c main_arg3) :=
  (dat0 V c).arrAt_eq_of_cover 2 _ (fun t _ => flushed_eq V c t) (cover)

end Cert.KernelIdeal.Gcn0

end
-- ==== Proof.SpecLsm.lean ====
/-
  The two spellings of a biased row log-softmax, read at the exact instance as the functions of the specification:
  the kernel body's (a lane maximum and a lane sum over the second axis, each cast to a column and broadcast along the
  rows) and the host's (a reduce by maximum from minus infinity, once more against minus infinity, and a reduce by
  sum from zero, each broadcast to a column and then along the rows). Both are, entry by entry, the entry less the
  row's largest, less the logarithm of the sum of the exponentials of those differences.
-/
import proofs.«117535_j49795850830444_1_alg».proof.Proof.Spec

noncomputable section

namespace Cert.Gcn

open Idealize.ShloMosaic Idealize.ShloMosaic.ValueIdx Cert.LibDense

variable {M N : Nat}

/-- The kernel body adds a one-row bias by casting both operands to themselves and broadcasting the row down. -/
theorem kernel_bias (x0 : FVec Ideal ⟨2, ![M, N]⟩ .f32) (x1 : FVec Ideal ⟨2, ![1, N]⟩ .f32)
    (h : (⟨2, ![M, N]⟩ : Shape).ShapeCasts ⟨2, ![M, N]⟩) (h' : (⟨2, ![1, N]⟩ : Shape).ShapeCasts ⟨2, ![1, N]⟩)
    (h'' : (⟨2, ![1, N]⟩ : Shape).Broadcasts ⟨2, ![M, N]⟩) :
    addf (shapeCast ⟨2, ![M, N]⟩ x0 h) (broadcastTo ⟨2, ![M, N]⟩ (shapeCast ⟨2, ![1, N]⟩ x1 h') h'') = biasRow x0 x1 := by
  funext i
  obtain ⟨p, q, rfl⟩ : ∃ (p : Fin M) (q : Fin N), i = ix2 p q := ⟨i 0, i 1, eq_ix2 i⟩
  rw [addf_apply, shapeCast_self, shapeCast_self, broadcastTo_1b_ab_apply _ h'' p q]
  rfl

/-- The kernel body's rectifier: the maximum against the zero word splat over the block. -/
theorem kernel_relu (v : FVec Ideal ⟨2, ![M, N]⟩ .f32) :
    maximumf v (broadcast ⟨2, ![M, N]⟩ (Scalar.ofBits (F := Ideal) .f32 0x00000000#32)) = relu v := by
  funext i
  rfl

/-- The kernel body's row log-softmax is the specification's. -/
theorem kernel_lsm (v : FVec Ideal ⟨2, ![M, N]⟩ .f32)
    (hred : (⟨2, ![M, N]⟩ : Shape).Reduces [1] ⟨1, ![M]⟩) (hc : (⟨1, ![M]⟩ : Shape).ShapeCasts ⟨2, ![M, 1]⟩)
    (hb : (⟨2, ![M, 1]⟩ : Shape).Broadcasts ⟨2, ![M, N]⟩) (hφ : FKind.Formats .f32)
    (ha : (0xFF800000#32 : BitVec 32) = 0xFF800000#32) (ha' : (0x00000000#32 : BitVec 32) = 0x00000000#32) :
    subf (subf v (broadcastTo ⟨2, ![M, N]⟩ (shapeCast ⟨2, ![M, 1]⟩
        (multiReduction .maximumf [1] ⟨1, ![M]⟩ v 0xFF800000#32 hred hφ ha) hc) hb))
      (broadcastTo ⟨2, ![M, N]⟩ (log (shapeCast ⟨2, ![M, 1]⟩
        (multiReduction .add [1] ⟨1, ![M]⟩ (exp (subf v (broadcastTo ⟨2, ![M, N]⟩ (shapeCast ⟨2, ![M, 1]⟩
          (multiReduction .maximumf [1] ⟨1, ![M]⟩ v 0xFF800000#32 hred hφ ha) hc) hb))) 0x00000000#32 hred hφ ha') hc)) hb)
      = lsm v := by
  have hmx : ∀ (p' : Fin M) (q' : Fin N), broadcastTo ⟨2, ![M, N]⟩ (shapeCast ⟨2, ![M, 1]⟩
      (multiReduction .maximumf [1] ⟨1, ![M]⟩ v 0xFF800000#32 hred hφ ha) hc) hb (ix2 p' q') = top (fun u => v (ix2 p' u)) :=
    fun p' q' => by
      rw [colBroadcast_rc _ hc hb p' q', rowMax_apply v hred hφ ha p']
      rfl
  funext i
  obtain ⟨p, q, rfl⟩ : ∃ (p : Fin M) (q : Fin N), i = ix2 p q := ⟨i 0, i 1, eq_ix2 i⟩
  rw [lsm_apply, subf_apply, subf_apply, hmx, broadcastTo_a1_ab_apply _ hb p q]
  refine congrArg (fun z => v (ix2 p q) - top (fun u => v (ix2 p u)) - z) ?_
  show Ideal.log (shapeCast ⟨2, ![M, 1]⟩ _ hc (ix2 p (0 : Fin 1))) = _
  rw [shapeCast_a_a1_apply _ hc p 0, rowSum_apply _ hred hφ ha' p]
  refine congrArg Ideal.log (Finset.sum_congr rfl fun u _ => ?_)
  show Ideal.exp (v (ix2 p u) - _) = _
  rw [hmx]

/-- An [M] vector broadcast to one column [M, 1] and then along the rows to [M, N] reads, at (p, q), the vector at p. -/
theorem colBroadcastInDim_rc {α : Type} (w : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (q : Fin N) :
    broadcastInDim ⟨2, ![M, N]⟩ ![0, 1] h2 (broadcastInDim ⟨2, ![M, 1]⟩ ![0] h1 w) (ix2 p q) = w (ix1 p) := by
  refine (broadcastInDim_apply ![0, 1] h2 _ (ix2 p q) (ix2 p (0 : Fin 1)) fun a => ?_).trans
    (broadcastInDim_apply ![0] h1 w (ix2 p (0 : Fin 1)) (ix1 p) fun a => ?_)
  · match a with
    | ⟨0, _⟩ =>
      show p.val = if M = 1 then 0 else p.val
      split
      · have := p.isLt; omega
      · rfl
    | ⟨1, _⟩ => show 0 = if (1 : Nat) = 1 then 0 else q.val; rw [if_pos rfl]
  · match a with
    | ⟨0, _⟩ =>
      show p.val = if M = 1 then 0 else p.val
      split
      · have := p.isLt; omega
      · rfl

/-- The same through a pointwise function applied to the column. -/
theorem colBroadcastInDim_mid_rc {α : Type} (w : (⟨1, ![M]⟩ : Shape).Idx → α) (f : α → α)
    (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (q : Fin N) :
    broadcastInDim ⟨2, ![M, N]⟩ ![0, 1] h2 (fun j => f (broadcastInDim ⟨2, ![M, 1]⟩ ![0] h1 w j)) (ix2 p q) = f (w (ix1 p)) := by
  have e1 := broadcastInDim_apply ![0, 1] h2 (fun j => f (broadcastInDim ⟨2, ![M, 1]⟩ ![0] h1 w j)) (ix2 p q) (ix2 p (0 : Fin 1))
    (fun a => by
      match a with
      | ⟨0, _⟩ =>
        show p.val = if M = 1 then 0 else p.val
        split
        · have := p.isLt; omega
        · rfl
      | ⟨1, _⟩ => show 0 = if (1 : Nat) = 1 then 0 else q.val; rw [if_pos rfl])
  have e2 := broadcastInDim_apply ![0] h1 w (ix2 p (0 : Fin 1)) (ix1 p)
    (fun a => by
      match a with
      | ⟨0, _⟩ =>
        show p.val = if M = 1 then 0 else p.val
        split
        · have := p.isLt; omega
        · rfl)
  exact e1.trans (congrArg f e2)

/-- The host's row log-softmax is the specification's. -/
theorem host_lsm (v : FVec Ideal ⟨2, ![M, N]⟩ .f32)
    (hred : (⟨2, ![M, N]⟩ : Shape).Reduces [1] ⟨1, ![M]⟩) (hto : (⟨2, ![M, N]⟩ : Shape).ReducesTo [1] ⟨1, ![M]⟩)
    (hu : 0 < (⟨0, ![]⟩ : Shape).numel)
    (h0 : (⟨0, ![]⟩ : Shape).BroadcastsInDim ⟨1, ![M]⟩ (![] : Fin 0 → Fin 1))
    (h1 : (⟨1, ![M]⟩ : Shape).BroadcastsInDim ⟨2, ![M, 1]⟩ ![0])
    (h2 : (⟨2, ![M, 1]⟩ : Shape).BroadcastsInDim ⟨2, ![M, N]⟩ ![0, 1]) :
    subf (subf v (broadcastInDim ⟨2, ![M, N]⟩ ![0, 1] h2 (broadcastInDim ⟨2, ![M, 1]⟩ ![0] h1
        (maximumf (broadcastInDim ⟨1, ![M]⟩ ![] h0 (constant (F := Ideal) ⟨0, ![]⟩ .f32 0xFF800000#32))
          (Host.reduce (FloatOps.maximumf (F := Ideal) (φ := .f32)) v (constant (F := Ideal) ⟨0, ![]⟩ .f32 0xFF800000#32) hto hu)))))
      (broadcastInDim ⟨2, ![M, N]⟩ ![0, 1] h2 (Host.log (broadcastInDim ⟨2, ![M, 1]⟩ ![0] h1
        (Host.reduceAdd (Host.exp (subf v (broadcastInDim ⟨2, ![M, N]⟩ ![0, 1] h2 (broadcastInDim ⟨2, ![M, 1]⟩ ![0] h1
          (maximumf (broadcastInDim ⟨1, ![M]⟩ ![] h0 (constant (F := Ideal) ⟨0, ![]⟩ .f32 0xFF800000#32))
            (Host.reduce (FloatOps.maximumf (F := Ideal) (φ := .f32)) v (constant (F := Ideal) ⟨0, ![]⟩ .f32 0xFF800000#32) hto hu))))))
          (constant (F := Ideal) ⟨0, ![]⟩ .f32 0x00000000#32) hto hu))))
      = lsm v := by
  have hmx : ∀ (p' : Fin M) (q' : Fin N), broadcastInDim ⟨2, ![M, N]⟩ ![0, 1] h2 (broadcastInDim ⟨2, ![M, 1]⟩ ![0] h1
        (maximumf (broadcastInDim ⟨1, ![M]⟩ ![] h0 (constant (F := Ideal) ⟨0, ![]⟩ .f32 0xFF800000#32))
          (Host.reduce (FloatOps.maximumf (F := Ideal) (φ := .f32)) v (constant (F := Ideal) ⟨0, ![]⟩ .f32 0xFF800000#32) hto hu)))
        (ix2 p' q') = top (fun u => v (ix2 p' u)) :=
    fun p' q' => by
      rw [colBroadcastInDim_rc _ h1 h2 p' q', maximumf_apply, hostRowMax_apply v _ hto hred hu p',
        Cert.LibHostDot.scalarBroadcastInDim_apply h0 _ (ix1 p') ix0]
      exact max_negInf_top _
  funext i
  obtain ⟨p, q, rfl⟩ : ∃ (p : Fin M) (q : Fin N), i = ix2 p q := ⟨i 0, i 1, eq_ix2 i⟩
  rw [lsm_apply, subf_apply, subf_apply, hmx]
  refine congrArg (fun z => v (ix2 p q) - top (fun u => v (ix2 p u)) - z) ?_
  refine (colBroadcastInDim_mid_rc _ Ideal.log h1 h2 p q).trans ?_
  refine congrArg Ideal.log ?_
  show Ideal.hostReduceAdd hto _ _ (ix1 p) = _
  rw [Ideal.hostReduceAdd_single hto hred _ _ (ix1 p)]
  show Ideal.ofBits .f32 0x00000000#32 + _ = _
  rw [Ideal.ofBits_zero_f32, zero_add]
  refine Finset.sum_congr rfl fun u _ => ?_
  show Ideal.exp (v (hred.lift (ix1 p) u) - _) = _
  rw [lift_row hred p u]
  exact congrArg (fun z => Ideal.exp (v (ix2 p u) - z)) (hmx p u)

end Cert.Gcn

end
-- ==== Proof.Region1.lean ====
/-
  Grid 1 of the idealized kernel adds the bias row to every row of a block of 5000 rows and takes the larger of each entry and zero; its twenty points tile the rows. Read at the exact instance the result
  array is that function of the two operand arrays as the grid finds them, entry by entry.
-/
import proofs.«117535_j49795850830444_1_alg».proof.Proof.Gen.KernelIdeal.Frame
import proofs.«117535_j49795850830444_1_alg».proof.Proof.SpecLsm

set_option maxRecDepth 16384

noncomputable section

namespace Cert.KernelIdeal.Gcn1

open Cert.KernelIdeal Cert.KernelIdeal.Gen
open Idealize.ShloMosaic Idealize.ShloMosaic.TcCoe Idealize.SL.Sem
open Idealize.ShloMosaic.ValueIdx Cert.Gcn Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value, as a function of its two blocks. -/
theorem pay (x0 : Vec Ideal S5000x128 .f32) (x1 : Vec Ideal S1x128 .f32) :
    k1_pay1 x0 x1 = relu (biasRow (M := 5000) (N := 128) x0 x1) := by
  unfold k1_pay1
  exact (congrArg (fun z => maximumf z (broadcast S5000x128 (Scalar.ofBits (F := Ideal) .f32 0x00000000#32)))
    (kernel_bias (M := 5000) (N := 128) x0 x1 shapeCasts_S5000x128_S5000x128 shapeCasts_S1x128_S1x128 broadcasts_S1x128_S5000x128)).trans (kernel_relu _)

/-- A block's entry is the whole array's entry when the block's row is the array's row and the bias row is held
    whole. -/
theorem block_eq (x0 : Vec Ideal S5000x128 .f32) (x1 : Vec Ideal S1x128 .f32)
    (A : (⟨2, ![100000, 128]⟩ : Shape).Idx → EReal) (B : (⟨2, ![1, 128]⟩ : Shape).Idx → EReal)
    (y : S5000x128.Idx) (i : S100000x128.Idx)
    (h0 : ∀ u : Fin 128, x0 (ix2 (⟨(y 0).val, (y 0).isLt⟩ : Fin 5000) u) = A (ix2 (⟨(i 0).val, (i 0).isLt⟩ : Fin 100000) u))
    (h1 : ∀ j : S1x128.Idx, x1 j = B j) (hq : (i 1).val = (y 1).val) :
    k1_pay1 x0 x1 y = relu (biasRow (M := 100000) (N := 128) A B) i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hq
  rw [hs]
  have h0' : ∀ u : Fin 128, x0 (ix2 p u) = A (ix2 r u) := h0
  have hrow : ∀ u : Fin 128, biasRow (M := 5000) (N := 128) x0 x1 (ix2 p u) = biasRow (M := 100000) (N := 128) A B (ix2 r u) :=
    fun u => by rw [biasRow_apply, biasRow_apply, h0' u, h1]
  rw [pay]
  show max (biasRow x0 x1 (ix2 p q)) zeroWord = max (biasRow A B (ix2 r q)) zeroWord
  rw [hrow]

/-! ## From the blocks to the array -/

/-- The printed index maps over the twenty points: the left operand's and the result's blocks are the point's own
    block of rows, the bias row is held whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of that function of the operand arrays as the grid finds them. -/
theorem flushed_eq (c : Dev nD) (t : Fin cfg1.N) :
    (dat1 V c).flushed 2 t = ((cfg1.win 2).blk t).view.read (Elt Ideal)
      (relu (biasRow (M := 100000) (N := 128) (V c main_v43) (V c main_v44))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (iblk1 V c 0 t) (iblk1 V c 1 t) j
    = relu (biasRow (M := 100000) (N := 128) (V c main_v43) (V c main_v44)) (((cfg1.win 2).blk t).view.emb j)
  refine block_eq (iblk1 V c 0 t) (iblk1 V c 1 t) (V c main_v43) (V c main_v44) j _ (fun u => ?_) (fun y => ?_) ?_
  · show V c main_v43 (((cfg1.win 0).blk t).view.emb _) = V c main_v43 _
    refine congrArg (V c main_v43) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * u.val = u.val
      omega
  · show V c main_v44 (((cfg1.win 1).blk t).view.emb y) = V c main_v44 y
    refine congrArg (V c main_v44) (funext fun a => Fin.ext ?_)
    match a with
    | ⟨0, _⟩ =>
      show win1_1.index t (0 : Fin 2) * 1 + 1 * (y 0).val = (y 0).val
      omega
    | ⟨1, _⟩ =>
      show win1_1.index t (1 : Fin 2) * 128 + 1 * (y 1).val = (y 1).val
      omega
  · show win1_2.index t (1 : Fin 2) * 128 + 1 * (j 1).val = (j 1).val
    omega

/-- An index of the result array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every row of the result is in the block of the point numbered by the row's quotient by 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < cfg1.N := by show (i 0).val / 5000 < 20; omega
  obtain ⟨e0, e1, e2, e3, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]
    omega

/-- The result array after the grid. -/
theorem arr (c : Dev nD) :
    (dat1 V c).arrAt 2 cfg1.N = relu (biasRow (M := 100000) (N := 128) (V c main_v43) (V c main_v44)) :=
  (dat1 V c).arrAt_eq_of_cover 2 _ (fun t _ => flushed_eq V c t) (cover)

end Cert.KernelIdeal.Gcn1

end
-- ==== Proof.Region2.lean ====
/-
  Grid 2 of the idealized kernel is a matrix product tiled over the rows: each of its twenty points multiplies a
  block of 5000 rows of the left operand by the whole right operand, and the blocks tile the result. Read at the
  exact instance the result array is the product of the two operand arrays as the grid finds them, entry by entry
  (the roundings to bf16 on the way into the product are the identity on extended reals).
-/
import proofs.«117535_j49795850830444_1_alg».proof.Proof.Gen.KernelIdeal.Frame
import proofs.«117535_j49795850830444_1_alg».proof.Proof.Spec

set_option maxRecDepth 16384

noncomputable section

namespace Cert.KernelIdeal.Gcn2

open Cert.KernelIdeal Cert.KernelIdeal.Gen
open Idealize.ShloMosaic Idealize.ShloMosaic.TcCoe Idealize.SL.Sem
open Idealize.ShloMosaic.ValueIdx Cert.Gcn Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block product's index maps, coordinate by coordinate -/

theorem dl0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dl1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dr0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dr1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's value at (p, q): the sum over k of the row block's (p, k) times the right operand's (k, q). -/
theorem pay (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  refine (matmul_zero_rc (M := 5000) (K := 128) (N := 64) dot_S5000x128_S128x64_S5000x64_1_0_0_1_n_n rfl rfl dl0 dl1 dr0 dr1 none _ _ p q).trans ?_
  refine Finset.sum_congr rfl fun k _ => ?_
  rw [truncf_apply, truncf_apply, shapeCast_self]

/-- A block's entry is the whole product's entry when the block's row p is the array's row r and the right operand is
    held whole. -/
theorem block_eq (x0 : Vec Ideal S5000x128 .f32) (x1 : Vec Ideal S128x64 .f32)
    (A : (⟨2, ![100000, 128]⟩ : Shape).Idx → EReal) (W : (⟨2, ![128, 64]⟩ : Shape).Idx → EReal)
    (y : S5000x64.Idx) (i : S100000x64.Idx)
    (h0 : ∀ k : Fin 128, x0 (ix2 (⟨(y 0).val, (y 0).isLt⟩ : Fin 5000) k) = A (ix2 (⟨(i 0).val, (i 0).isLt⟩ : Fin 100000) k))
    (h1 : ∀ j : S128x64.Idx, x1 j = W j) (hq : (i 1).val = (y 1).val) :
    k2_pay1 x0 x1 y = mm A W i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext hq
  have h0' : ∀ k : Fin 128, x0 (ix2 p k) = A (ix2 r k) := h0
  rw [pay, mm_apply]
  exact Finset.sum_congr rfl fun k _ => by rw [h0' k, h1]

/-! ## From the blocks to the array -/

/-- The printed index maps over the twenty points: the left operand's and the result's blocks are the point's own
    block of rows, the right operand's is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the operand arrays as the grid finds them. -/
theorem flushed_eq (c : Dev nD) (t : Fin cfg2.N) :
    (dat2 V c).flushed 2 t = ((cfg2.win 2).blk t).view.read (Elt Ideal)
      (mm (M := 100000) (K := 128) (N := 64) (V c main_v45) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  show k2_pay1 (iblk2 V c 0 t) (iblk2 V c 1 t) j
    = mm (M := 100000) (K := 128) (N := 64) (V c main_v45) (V c main_arg5) (((cfg2.win 2).blk t).view.emb j)
  refine block_eq (iblk2 V c 0 t) (iblk2 V c 1 t) (V c main_v45) (V c main_arg5) j _ (fun k => ?_) (fun y => ?_) ?_
  · show V c main_v45 (((cfg2.win 0).blk t).view.emb _) = V c main_v45 _
    refine congrArg (V c main_v45) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg5 (((cfg2.win 1).blk t).view.emb y) = V c main_arg5 y
    refine congrArg (V c main_arg5) (funext fun a => Fin.ext ?_)
    match a with
    | ⟨0, _⟩ =>
      show win2_1.index t (0 : Fin 2) * 128 + 1 * (y 0).val = (y 0).val
      omega
    | ⟨1, _⟩ =>
      show win2_1.index t (1 : Fin 2) * 64 + 1 * (y 1).val = (y 1).val
      omega
  · show win2_2.index t (1 : Fin 2) * 64 + 1 * (j 1).val = (j 1).val
    omega

/-- An index of the result array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Every row of the result is in the block of the point numbered by the row's quotient by 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 5000 < cfg2.N := by show (i 0).val / 5000 < 20; omega
  obtain ⟨e0, e1, e2, e3, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    rw [e5]
    omega

/-- The result array after the grid: the product of the operand arrays as the grid finds them. -/
theorem arr (c : Dev nD) :
    (dat2 V c).arrAt 2 cfg2.N = mm (M := 100000) (K := 128) (N := 64) (V c main_v45) (V c main_arg5) :=
  (dat2 V c).arrAt_eq_of_cover 2 _ (fun t _ => flushed_eq V c t) (cover)

end Cert.KernelIdeal.Gcn2

end
-- ==== Proof.Region3.lean ====
/-
  Grid 3 of the idealized kernel adds the bias row to every row of a block of 5000 rows; its twenty points tile the rows. Read at the exact instance the result
  array is that function of the two operand arrays as the grid finds them, entry by entry.
-/
import proofs.«117535_j49795850830444_1_alg».proof.Proof.Gen.KernelIdeal.Frame
import proofs.«117535_j49795850830444_1_alg».proof.Proof.SpecLsm

set_option maxRecDepth 16384

noncomputable section

namespace Cert.KernelIdeal.Gcn3

open Cert.KernelIdeal Cert.KernelIdeal.Gen
open Idealize.ShloMosaic Idealize.ShloMosaic.TcCoe Idealize.SL.Sem
open Idealize.ShloMosaic.ValueIdx Cert.Gcn Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value, as a function of its two blocks. -/
theorem pay (x0 : Vec Ideal S5000x64 .f32) (x1 : Vec Ideal S1x64 .f32) :
    k3_pay1 x0 x1 = (biasRow (M := 5000) (N := 64) x0 x1) := by
  unfold k3_pay1
  exact kernel_bias (M := 5000) (N := 64) x0 x1 shapeCasts_S5000x64_S5000x64 shapeCasts_S1x64_S1x64 broadcasts_S1x64_S5000x64

/-- A block's entry is the whole array's entry when the block's row is the array's row and the bias row is held
    whole. -/
theorem block_eq (x0 : Vec Ideal S5000x64 .f32) (x1 : Vec Ideal S1x64 .f32)
    (A : (⟨2, ![100000, 64]⟩ : Shape).Idx → EReal) (B : (⟨2, ![1, 64]⟩ : Shape).Idx → EReal)
    (y : S5000x64.Idx) (i : S100000x64.Idx)
    (h0 : ∀ u : Fin 64, x0 (ix2 (⟨(y 0).val, (y 0).isLt⟩ : Fin 5000) u) = A (ix2 (⟨(i 0).val, (i 0).isLt⟩ : Fin 100000) u))
    (h1 : ∀ j : S1x64.Idx, x1 j = B j) (hq : (i 1).val = (y 1).val) :
    k3_pay1 x0 x1 y = (biasRow (M := 100000) (N := 64) A B) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext hq
  rw [hs]
  have h0' : ∀ u : Fin 64, x0 (ix2 p u) = A (ix2 r u) := h0
  have hrow : ∀ u : Fin 64, biasRow (M := 5000) (N := 64) x0 x1 (ix2 p u) = biasRow (M := 100000) (N := 64) A B (ix2 r u) :=
    fun u => by rw [biasRow_apply, biasRow_apply, h0' u, h1]
  rw [pay]
  exact hrow q

/-! ## From the blocks to the array -/

/-- The printed index maps over the twenty points: the left operand's and the result's blocks are the point's own
    block of rows, the bias row is held whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of that function of the operand arrays as the grid finds them. -/
theorem flushed_eq (c : Dev nD) (t : Fin cfg3.N) :
    (dat3 V c).flushed 2 t = ((cfg3.win 2).blk t).view.read (Elt Ideal)
      ((biasRow (M := 100000) (N := 64) (V c main_v59) (V c main_v60))) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  show k3_pay1 (iblk3 V c 0 t) (iblk3 V c 1 t) j
    = (biasRow (M := 100000) (N := 64) (V c main_v59) (V c main_v60)) (((cfg3.win 2).blk t).view.emb j)
  refine block_eq (iblk3 V c 0 t) (iblk3 V c 1 t) (V c main_v59) (V c main_v60) j _ (fun u => ?_) (fun y => ?_) ?_
  · show V c main_v59 (((cfg3.win 0).blk t).view.emb _) = V c main_v59 _
    refine congrArg (V c main_v59) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 64 + 1 * u.val = u.val
      omega
  · show V c main_v60 (((cfg3.win 1).blk t).view.emb y) = V c main_v60 y
    refine congrArg (V c main_v60) (funext fun a => Fin.ext ?_)
    match a with
    | ⟨0, _⟩ =>
      show win3_1.index t (0 : Fin 2) * 1 + 1 * (y 0).val = (y 0).val
      omega
    | ⟨1, _⟩ =>
      show win3_1.index t (1 : Fin 2) * 64 + 1 * (y 1).val = (y 1).val
      omega
  · show win3_2.index t (1 : Fin 2) * 64 + 1 * (j 1).val = (j 1).val
    omega

/-- An index of the result array is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- Every row of the result is in the block of the point numbered by the row's quotient by 5000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have ht : (i 0).val / 5000 < cfg3.N := by show (i 0).val / 5000 < 20; omega
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 64 ≤ (i 1).val
      ∧ (i 1).val < win3_2.index ⟨(i 0).val / 5000, ht⟩ (1 : Fin 2) * 64 + 64
    rw [e5]
    omega

/-- The result array after the grid. -/
theorem arr (c : Dev nD) :
    (dat3 V c).arrAt 2 cfg3.N = (biasRow (M := 100000) (N := 64) (V c main_v59) (V c main_v60)) :=
  (dat3 V c).arrAt_eq_of_cover 2 _ (fun t _ => flushed_eq V c t) (cover)

end Cert.KernelIdeal.Gcn3

end
-- ==== Proof.Region4.lean ====
/-
  Grid 4 of the idealized kernel is a matrix product tiled over the rows: each of its twenty points multiplies a
  block of 5000 rows of the left operand by the whole right operand, and the blocks tile the result. Read at the
  exact instance the result array is the product of the two operand arrays as the grid finds them, entry by entry
  (the roundings to bf16 on the way into the product are the identity on extended reals).
-/
import proofs.«117535_j49795850830444_1_alg».proof.Proof.Gen.KernelIdeal.Frame
import proofs.«117535_j49795850830444_1_alg».proof.Proof.Spec

set_option maxRecDepth 16384

noncomputable section

namespace Cert.KernelIdeal.Gcn4

open Cert.KernelIdeal Cert.KernelIdeal.Gen
open Idealize.ShloMosaic Idealize.ShloMosaic.TcCoe Idealize.SL.Sem
open Idealize.ShloMosaic.ValueIdx Cert.Gcn Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block product's index maps, coordinate by coordinate -/

theorem dl0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dl1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem dr0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem dr1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The body's value at (p, q): the sum over k of the row block's (p, k) times the right operand's (k, q). -/
theorem pay (x0 : Vec Ideal S5000x64 .f32) (x1 : Vec Ideal S64x128 .f32) (p : Fin 5000) (q : Fin 128) :
    k4_pay1 x0 x1 (ix2 p q) = ∑ k : Fin 64, x0 (ix2 p k) * x1 (ix2 k q) := by
  unfold k4_pay1
  refine (matmul_zero_rc (M := 5000) (K := 64) (N := 128) dot_S5000x64_S64x128_S5000x128_1_0_0_1_n_n rfl rfl dl0 dl1 dr0 dr1 none _ _ p q).trans ?_
  refine Finset.sum_congr rfl fun k _ => ?_
  rw [truncf_apply, truncf_apply, shapeCast_self]

/-- A block's entry is the whole product's entry when the block's row p is the array's row r and the right operand is
    held whole. -/
theorem block_eq (x0 : Vec Ideal S5000x64 .f32) (x1 : Vec Ideal S64x128 .f32)
    (A : (⟨2, ![100000, 64]⟩ : Shape).Idx → EReal) (W : (⟨2, ![64, 128]⟩ : Shape).Idx → EReal)
    (y : S5000x128.Idx) (i : S100000x128.Idx)
    (h0 : ∀ k : Fin 64, x0 (ix2 (⟨(y 0).val, (y 0).isLt⟩ : Fin 5000) k) = A (ix2 (⟨(i 0).val, (i 0).isLt⟩ : Fin 100000) k))
    (h1 : ∀ j : S64x128.Idx, x1 j = W j) (hq : (i 1).val = (y 1).val) :
    k4_pay1 x0 x1 y = mm A W i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hq
  have h0' : ∀ k : Fin 64, x0 (ix2 p k) = A (ix2 r k) := h0
  rw [pay, mm_apply]
  exact Finset.sum_congr rfl fun k _ => by rw [h0' k, h1]

/-! ## From the blocks to the array -/

/-- The printed index maps over the twenty points: the left operand's and the result's blocks are the point's own
    block of rows, the right operand's is the whole matrix. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the operand arrays as the grid finds them. -/
theorem flushed_eq (c : Dev nD) (t : Fin cfg4.N) :
    (dat4 V c).flushed 2 t = ((cfg4.win 2).blk t).view.read (Elt Ideal)
      (mm (M := 100000) (K := 64) (N := 128) (V c main_v61) (V c main_arg3)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x128) hz]
  obtain ⟨e0, e1, e2, e3, e4, e5⟩ := idx_facts t
  funext j
  show k4_pay1 (iblk4 V c 0 t) (iblk4 V c 1 t) j
    = mm (M := 100000) (K := 64) (N := 128) (V c main_v61) (V c main_arg3) (((cfg4.win 2).blk t).view.emb j)
  refine block_eq (iblk4 V c 0 t) (iblk4 V c 1 t) (V c main_v61) (V c main_arg3) j _ (fun k => ?_) (fun y => ?_) ?_
  · show V c main_v61 (((cfg4.win 0).blk t).view.emb _) = V c main_v61 _
    refine congrArg (V c main_v61) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 64 + 1 * k.val = k.val
      omega
  · show V c main_arg3 (((cfg4.win 1).blk t).view.emb y) = V c main_arg3 y
    refine congrArg (V c main_arg3) (funext fun a => Fin.ext ?_)
    match a with
    | ⟨0, _⟩ =>
      show win4_1.index t (0 : Fin 2) * 64 + 1 * (y 0).val = (y 0).val
      omega
    | ⟨1, _⟩ =>
      show win4_1.index t (1 : Fin 2) * 128 + 1 * (y 1).val = (y 1).val
      omega
  · show win4_2.index t (1 : Fin 2) * 128 + 1 * (j 1).val = (j 1).val
    omega

/-- An index of the result array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v92).slice (win4_2.rect t)).set ↔ _
  rw [View.set_slice_whole, Rect.mem_set_unit]
  exact Iff.rfl

/-- Every row of the result is in the block of the point numbered by the row's quotient by 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 5000 < cfg4.N := by show (i 0).val / 5000 < 20; omega
  obtain ⟨e0, e1, e2, e3, e4, e5⟩ := idx_facts ⟨(i 0).val / 5000, ht⟩
  refine ⟨⟨(i 0).val / 5000, ht⟩, flush4_2 _, ?_⟩
  rw [mem_blk]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e5]
    omega

/-- The result array after the grid: the product of the operand arrays as the grid finds them. -/
theorem arr (c : Dev nD) :
    (dat4 V c).arrAt 2 cfg4.N = mm (M := 100000) (K := 64) (N := 128) (V c main_v61) (V c main_arg3) :=
  (dat4 V c).arrAt_eq_of_cover 2 _ (fun t _ => flushed_eq V c t) (cover)

end Cert.KernelIdeal.Gcn4

end
-- ==== Proof.Region5.lean ====
/-
  Grid 5 of the idealized kernel adds the bias row to every row of a block of 5000 rows and takes the larger of each entry and zero; its twenty points tile the rows. Read at the exact instance the result
  array is that function of the two operand arrays as the grid finds them, entry by entry.
-/
import proofs.«117535_j49795850830444_1_alg».proof.Proof.Gen.KernelIdeal.Frame
import proofs.«117535_j49795850830444_1_alg».proof.Proof.SpecLsm

set_option maxRecDepth 16384

noncomputable section

namespace Cert.KernelIdeal.Gcn5

open Cert.KernelIdeal Cert.KernelIdeal.Gen
open Idealize.ShloMosaic Idealize.ShloMosaic.TcCoe Idealize.SL.Sem
open Idealize.ShloMosaic.ValueIdx Cert.Gcn Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value, as a function of its two blocks. -/
theorem pay (x0 : Vec Ideal S5000x128 .f32) (x1 : Vec Ideal S1x128 .f32) :
    k5_pay1 x0 x1 = relu (biasRow (M := 5000) (N := 128) x0 x1) := by
  unfold k5_pay1
  exact (congrArg (fun z => maximumf z (broadcast S5000x128 (Scalar.ofBits (F := Ideal) .f32 0x00000000#32)))
    (kernel_bias (M := 5000) (N := 128) x0 x1 shapeCasts_S5000x128_S5000x128 shapeCasts_S1x128_S1x128 broadcasts_S1x128_S5000x128)).trans (kernel_relu _)

/-- A block's entry is the whole array's entry when the block's row is the array's row and the bias row is held
    whole. -/
theorem block_eq (x0 : Vec Ideal S5000x128 .f32) (x1 : Vec Ideal S1x128 .f32)
    (A : (⟨2, ![100000, 128]⟩ : Shape).Idx → EReal) (B : (⟨2, ![1, 128]⟩ : Shape).Idx → EReal)
    (y : S5000x128.Idx) (i : S100000x128.Idx)
    (h0 : ∀ u : Fin 128, x0 (ix2 (⟨(y 0).val, (y 0).isLt⟩ : Fin 5000) u) = A (ix2 (⟨(i 0).val, (i 0).isLt⟩ : Fin 100000) u))
    (h1 : ∀ j : S1x128.Idx, x1 j = B j) (hq : (i 1).val = (y 1).val) :
    k5_pay1 x0 x1 y = relu (biasRow (M := 100000) (N := 128) A B) i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hq
  rw [hs]
  have h0' : ∀ u : Fin 128, x0 (ix2 p u) = A (ix2 r u) := h0
  have hrow : ∀ u : Fin 128, biasRow (M := 5000) (N := 128) x0 x1 (ix2 p u) = biasRow (M := 100000) (N := 128) A B (ix2 r u) :=
    fun u => by rw [biasRow_apply, biasRow_apply, h0' u, h1]
  rw [pay]
  show max (biasRow x0 x1 (ix2 p q)) zeroWord = max (biasRow A B (ix2 r q)) zeroWord
  rw [hrow]

/-! ## From the blocks to the array -/

/-- The printed index maps over the twenty points: the left operand's and the result's blocks are the point's own
    block of rows, the bias row is held whole. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of that function of the operand arrays as the grid finds them. -/
theorem flushed_eq (c : Dev nD) (t : Fin cfg5.N) :
    (dat5 V c).flushed 2 t = ((cfg5.win 2).blk t).view.read (Elt Ideal)
      (relu (biasRow (M := 100000) (N := 128) (V c main_v105) (V c main_v106))) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx_facts t
  funext j
  show k5_pay1 (iblk5 V c 0 t) (iblk5 V c 1 t) j
    = relu (biasRow (M := 100000) (N := 128) (V c main_v105) (V c main_v106)) (((cfg5.win 2).blk t).view.emb j)
  refine block_eq (iblk5 V c 0 t) (iblk5 V c 1 t) (V c main_v105) (V c main_v106) j _ (fun u => ?_) (fun y => ?_) ?_
  · show V c main_v105 (((cfg5.win 0).blk t).view.emb _) = V c main_v105 _
    refine congrArg (V c main_v105) (funext fun a => Fin.ext ?_)
    match a with
    | ⟨0, _⟩ =>
      show win5_0.index t (0 : Fin 2) * 5000 + 1 * (j 0).val = win5_2.index t (0 : Fin 2) * 5000 + 1 * (j 0).val
      omega
    | ⟨1, _⟩ =>
      show win5_0.index t (1 : Fin 2) * 128 + 1 * u.val = u.val
      omega
  · show V c main_v106 (((cfg5.win 1).blk t).view.emb y) = V c main_v106 y
    refine congrArg (V c main_v106) (funext fun a => Fin.ext ?_)
    match a with
    | ⟨0, _⟩ =>
      show win5_1.index t (0 : Fin 2) * 1 + 1 * (y 0).val = (y 0).val
      omega
    | ⟨1, _⟩ =>
      show win5_1.index t (1 : Fin 2) * 128 + 1 * (y 1).val = (y 1).val
      omega
  · show win5_2.index t (1 : Fin 2) * 128 + 1 * (j 1).val = (j 1).val
    omega

/-- An index of the result array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v107).slice (win5_2.rect t)).set ↔ _
  rw [View.set_slice_whole, Rect.mem_set_unit]
  exact Iff.rfl

/-- Every row of the result is in the block of the point numbered by the row's quotient by 5000. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have ht : (i 0).val / 5000 < cfg5.N := by show (i 0).val / 5000 < 20; omega
  obtain ⟨e0, e1, e2, e3, e4, e5⟩ := idx_facts ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, ht⟩ (1 : Fin 2) * 128 ≤ (i 1).val
      ∧ (i 1).val < win5_2.index ⟨(i 0).val / 5000, ht⟩ (1 : Fin 2) * 128 + 128
    rw [e5]
    omega

/-- The result array after the grid. -/
theorem arr (c : Dev nD) :
    (dat5 V c).arrAt 2 cfg5.N = relu (biasRow (M := 100000) (N := 128) (V c main_v105) (V c main_v106)) :=
  (dat5 V c).arrAt_eq_of_cover 2 _ (fun t _ => flushed_eq V c t) (cover)

end Cert.KernelIdeal.Gcn5

end
-- ==== Proof.Region6.lean ====
/-
  Grid 6 of the idealized kernel is a matrix product tiled over the rows: each of its twenty points multiplies a
  block of 5000 rows of the left operand by the whole right operand, and the blocks tile the result. Read at the
  exact instance the result array is the product of the two operand arrays as the grid finds them, entry by entry
  (the roundings to bf16 on the way into the product are the identity on extended reals).
-/
import proofs.«117535_j49795850830444_1_alg».proof.Proof.Gen.KernelIdeal.Frame
import proofs.«117535_j49795850830444_1_alg».proof.Proof.Spec

set_option maxRecDepth 16384

noncomputable section

namespace Cert.KernelIdeal.Gcn6

open Cert.KernelIdeal Cert.KernelIdeal.Gen
open Idealize.ShloMosaic Idealize.ShloMosaic.TcCoe Idealize.SL.Sem
open Idealize.ShloMosaic.ValueIdx Cert.Gcn Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block product's index maps, coordinate by coordinate -/

theorem dl0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dl1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dr0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dr1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's value at (p, q): the sum over k of the row block's (p, k) times the right operand's (k, q). -/
theorem pay (x0 : Vec Ideal S5000x128 .f32) (x1 : Vec Ideal S128x64 .f32) (p : Fin 5000) (q : Fin 64) :
    k6_pay1 x0 x1 (ix2 p q) = ∑ k : Fin 128, x0 (ix2 p k) * x1 (ix2 k q) := by
  unfold k6_pay1
  refine (matmul_zero_rc (M := 5000) (K := 128) (N := 64) dot_S5000x128_S128x64_S5000x64_1_0_0_1_n_n rfl rfl dl0 dl1 dr0 dr1 none _ _ p q).trans ?_
  refine Finset.sum_congr rfl fun k _ => ?_
  rw [truncf_apply, truncf_apply, shapeCast_self]

/-- A block's entry is the whole product's entry when the block's row p is the array's row r and the right operand is
    held whole. -/
theorem block_eq (x0 : Vec Ideal S5000x128 .f32) (x1 : Vec Ideal S128x64 .f32)
    (A : (⟨2, ![100000, 128]⟩ : Shape).Idx → EReal) (W : (⟨2, ![128, 64]⟩ : Shape).Idx → EReal)
    (y : S5000x64.Idx) (i : S100000x64.Idx)
    (h0 : ∀ k : Fin 128, x0 (ix2 (⟨(y 0).val, (y 0).isLt⟩ : Fin 5000) k) = A (ix2 (⟨(i 0).val, (i 0).isLt⟩ : Fin 100000) k))
    (h1 : ∀ j : S128x64.Idx, x1 j = W j) (hq : (i 1).val = (y 1).val) :
    k6_pay1 x0 x1 y = mm A W i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext hq
  have h0' : ∀ k : Fin 128, x0 (ix2 p k) = A (ix2 r k) := h0
  rw [pay, mm_apply]
  exact Finset.sum_congr rfl fun k _ => by rw [h0' k, h1]

/-! ## From the blocks to the array -/

/-- The printed index maps over the twenty points: the left operand's and the result's blocks are the point's own
    block of rows, the right operand's is the whole matrix. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the operand arrays as the grid finds them. -/
theorem flushed_eq (c : Dev nD) (t : Fin cfg6.N) :
    (dat6 V c).flushed 2 t = ((cfg6.win 2).blk t).view.read (Elt Ideal)
      (mm (M := 100000) (K := 128) (N := 64) (V c main_v107) (V c main_arg5)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x64) hz]
  obtain ⟨e0, e1, e2, e3, e4, e5⟩ := idx_facts t
  funext j
  show k6_pay1 (iblk6 V c 0 t) (iblk6 V c 1 t) j
    = mm (M := 100000) (K := 128) (N := 64) (V c main_v107) (V c main_arg5) (((cfg6.win 2).blk t).view.emb j)
  refine block_eq (iblk6 V c 0 t) (iblk6 V c 1 t) (V c main_v107) (V c main_arg5) j _ (fun k => ?_) (fun y => ?_) ?_
  · show V c main_v107 (((cfg6.win 0).blk t).view.emb _) = V c main_v107 _
    refine congrArg (V c main_v107) (funext fun a => Fin.ext ?_)
    match a with
    | ⟨0, _⟩ =>
      show win6_0.index t (0 : Fin 2) * 5000 + 1 * (j 0).val = win6_2.index t (0 : Fin 2) * 5000 + 1 * (j 0).val
      omega
    | ⟨1, _⟩ =>
      show win6_0.index t (1 : Fin 2) * 128 + 1 * k.val = k.val
      omega
  · show V c main_arg5 (((cfg6.win 1).blk t).view.emb y) = V c main_arg5 y
    refine congrArg (V c main_arg5) (funext fun a => Fin.ext ?_)
    match a with
    | ⟨0, _⟩ =>
      show win6_1.index t (0 : Fin 2) * 128 + 1 * (y 0).val = (y 0).val
      omega
    | ⟨1, _⟩ =>
      show win6_1.index t (1 : Fin 2) * 64 + 1 * (y 1).val = (y 1).val
      omega
  · show win6_2.index t (1 : Fin 2) * 64 + 1 * (j 1).val = (j 1).val
    omega

/-- An index of the result array is in point t's block iff each coordinate is in the block's range on its axis. -/
theorem mem_blk (t : Fin cfg6.N) (i : S100000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v108).slice (win6_2.rect t)).set ↔ _
  rw [View.set_slice_whole, Rect.mem_set_unit]
  exact Iff.rfl

/-- Every row of the result is in the block of the point numbered by the row's quotient by 5000. -/
theorem cover (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have ht : (i 0).val / 5000 < cfg6.N := by show (i 0).val / 5000 < 20; omega
  obtain ⟨e0, e1, e2, e3, e4, e5⟩ := idx_facts ⟨(i 0).val / 5000, ht⟩
  refine ⟨⟨(i 0).val / 5000, ht⟩, flush6_2 _, ?_⟩
  rw [mem_blk]
  intro a
  match a with
  | ⟨0, _⟩ =>
    show win6_2.index ⟨(i 0).val / 5000, ht⟩ (0 : Fin 2) * 5000 ≤ (i 0).val
      ∧ (i 0).val < win6_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win6_2.index ⟨(i 0).val / 5000, ht⟩ (1 : Fin 2) * 64 ≤ (i 1).val
      ∧ (i 1).val < win6_2.index ⟨(i 0).val / 5000, ht⟩ (1 : Fin 2) * 64 + 64
    rw [e5]
    omega

/-- The result array after the grid: the product of the operand arrays as the grid finds them. -/
theorem arr (c : Dev nD) :
    (dat6 V c).arrAt 2 cfg6.N = mm (M := 100000) (K := 128) (N := 64) (V c main_v107) (V c main_arg5) :=
  (dat6 V c).arrAt_eq_of_cover 2 _ (fun t _ => flushed_eq V c t) (cover)

end Cert.KernelIdeal.Gcn6

end
-- ==== Proof.Region7.lean ====
/-
  Grid 7 of the idealized kernel adds the bias row to every row of a block of 5000 rows and takes each row's log-softmax (the entry less the row's largest, less the logarithm of the sum of the exponentials of those differences); its twenty points tile the rows. Read at the exact instance the result
  array is that function of the two operand arrays as the grid finds them, entry by entry.
-/
import proofs.«117535_j49795850830444_1_alg».proof.Proof.Gen.KernelIdeal.Frame
import proofs.«117535_j49795850830444_1_alg».proof.Proof.SpecLsm

set_option maxRecDepth 16384

noncomputable section

namespace Cert.KernelIdeal.Gcn7

open Cert.KernelIdeal Cert.KernelIdeal.Gen
open Idealize.ShloMosaic Idealize.ShloMosaic.TcCoe Idealize.SL.Sem
open Idealize.ShloMosaic.ValueIdx Cert.Gcn Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value, as a function of its two blocks. -/
theorem pay (x0 : Vec Ideal S5000x64 .f32) (x1 : Vec Ideal S1x64 .f32) :
    k7_pay1 x0 x1 = lsm (biasRow (M := 5000) (N := 64) x0 x1) := by
  unfold k7_pay1
  dsimp only
  rw [kernel_bias (M := 5000) (N := 64) x0 x1 shapeCasts_S5000x64_S5000x64 shapeCasts_S1x64_S1x64 broadcasts_S1x64_S5000x64]
  exact kernel_lsm (M := 5000) (N := 64) (biasRow x0 x1) reduces_S5000x64_S5000 shapeCasts_S5000_S5000x1 broadcasts_S5000x1_S5000x64 (.inl rfl) rfl rfl

/-- A block's entry is the whole array's entry when the block's row is the array's row and the bias row is held
    whole. -/
theorem block_eq (x0 : Vec Ideal S5000x64 .f32) (x1 : Vec Ideal S1x64 .f32)
    (A : (⟨2, ![100000, 64]⟩ : Shape).Idx → EReal) (B : (⟨2, ![1, 64]⟩ : Shape).Idx → EReal)
    (y : S5000x64.Idx) (i : S100000x64.Idx)
    (h0 : ∀ u : Fin 64, x0 (ix2 (⟨(y 0).val, (y 0).isLt⟩ : Fin 5000) u) = A (ix2 (⟨(i 0).val, (i 0).isLt⟩ : Fin 100000) u))
    (h1 : ∀ j : S1x64.Idx, x1 j = B j) (hq : (i 1).val = (y 1).val) :
    k7_pay1 x0 x1 y = lsm (biasRow (M := 100000) (N := 64) A B) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext hq
  rw [hs]
  have h0' : ∀ u : Fin 64, x0 (ix2 p u) = A (ix2 r u) := h0
  have hrow : ∀ u : Fin 64, biasRow (M := 5000) (N := 64) x0 x1 (ix2 p u) = biasRow (M := 100000) (N := 64) A B (ix2 r u) :=
    fun u => by rw [biasRow_apply, biasRow_apply, h0' u, h1]
  rw [pay]
  rw [lsm_apply, lsm_apply]
  simp only [hrow]

/-! ## From the blocks to the array -/

/-- The printed index maps over the twenty points: the left operand's and the result's blocks are the point's own
    block of rows, the bias row is held whole. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of that function of the operand arrays as the grid finds them. -/
theorem flushed_eq (c : Dev nD) (t : Fin cfg7.N) :
    (dat7 V c).flushed 2 t = ((cfg7.win 2).blk t).view.read (Elt Ideal)
      (lsm (biasRow (M := 100000) (N := 64) (V c main_v121) (V c main_v122))) := by
  show (cfg7.win 2).cut (grid7.coords t) ((dat7 V c).after 2 t) = _
  rw [after7_2]
  unfold out7_2
  rw [View.canon_unit_zero hz]
  simp only [View.ld_unit_zero (S := S5000x64) hz, View.ld_unit_zero (S := S1x64) hz]
  obtain ⟨e0, e1, e2, e3, e4, e5⟩ := idx_facts t
  funext j
  show k7_pay1 (iblk7 V c 0 t) (iblk7 V c 1 t) j
    = lsm (biasRow (M := 100000) (N := 64) (V c main_v121) (V c main_v122)) (((cfg7.win 2).blk t).view.emb j)
  refine block_eq (iblk7 V c 0 t) (iblk7 V c 1 t) (V c main_v121) (V c main_v122) j _ (fun u => ?_) (fun y => ?_) ?_
  · show V c main_v121 (((cfg7.win 0).blk t).view.emb _) = V c main_v121 _
    refine congrArg (V c main_v121) (funext fun a => Fin.ext ?_)
    match a with
    | ⟨0, _⟩ =>
      show win7_0.index t (0 : Fin 2) * 5000 + 1 * (j 0).val = win7_2.index t (0 : Fin 2) * 5000 + 1 * (j 0).val
      omega
    | ⟨1, _⟩ =>
      show win7_0.index t (1 : Fin 2) * 64 + 1 * u.val = u.val
      omega
  · show V c main_v122 (((cfg7.win 1).blk t).view.emb y) = V c main_v122 y
    refine congrArg (V c main_v122) (funext fun a => Fin.ext ?_)
    match a with
    | ⟨0, _⟩ =>
      show win7_1.index t (0 : Fin 2) * 1 + 1 * (y 0).val = (y 0).val
      omega
    | ⟨1, _⟩ =>
      show win7_1.index t (1 : Fin 2) * 64 + 1 * (y 1).val = (y 1).val
      omega
  · show win7_2.index t (1 : Fin 2) * 64 + 1 * (j 1).val = (j 1).val
    omega

/-- An index of the result array is in point t's block iff each coordinate is in the block's range on its axis. -/
theorem mem_blk (t : Fin cfg7.N) (i : S100000x64.Idx) :
    i ∈ ((cfg7.win 2).blk t).view.set ↔ ∀ a : Fin 2, win7_2.index t a * S5000x64.size a ≤ (i a).val
      ∧ (i a).val < win7_2.index t a * S5000x64.size a + S5000x64.size a := by
  show i ∈ ((View.whole main_v123).slice (win7_2.rect t)).set ↔ _
  rw [View.set_slice_whole, Rect.mem_set_unit]
  exact Iff.rfl

/-- Every row of the result is in the block of the point numbered by the row's quotient by 5000. -/
theorem cover (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have ht : (i 0).val / 5000 < cfg7.N := by show (i 0).val / 5000 < 20; omega
  obtain ⟨e0, e1, e2, e3, e4, e5⟩ := idx_facts ⟨(i 0).val / 5000, ht⟩
  refine ⟨⟨(i 0).val / 5000, ht⟩, flush7_2 _, ?_⟩
  rw [mem_blk]
  intro a
  match a with
  | ⟨0, _⟩ =>
    show win7_2.index ⟨(i 0).val / 5000, ht⟩ (0 : Fin 2) * 5000 ≤ (i 0).val
      ∧ (i 0).val < win7_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win7_2.index ⟨(i 0).val / 5000, ht⟩ (1 : Fin 2) * 64 ≤ (i 1).val
      ∧ (i 1).val < win7_2.index ⟨(i 0).val / 5000, ht⟩ (1 : Fin 2) * 64 + 64
    rw [e5]
    omega

/-- The result array after the grid. -/
theorem arr (c : Dev nD) :
    (dat7 V c).arrAt 2 cfg7.N = lsm (biasRow (M := 100000) (N := 64) (V c main_v121) (V c main_v122)) :=
  (dat7 V c).arrAt_eq_of_cover 2 _ (fun t _ => flushed_eq V c t) (cover)

end Cert.KernelIdeal.Gcn7

end
-- ==== Proof.Sim.lean ====
/-
  Each of the eight grids leaves the buffers as one host operation would: its result array at the grid's function of its
  two operand arrays, every other buffer as it was. So the buffer contents at the last segment boundary are those of
  a straight line of host operations run from the launch memory: the program's own host stretches with, in each
  grid's place, one binary operation computing the grid's function.
-/
import proofs.«117535_j49795850830444_1_alg».proof.Proof.Region0
import proofs.«117535_j49795850830444_1_alg».proof.Proof.Region1
import proofs.«117535_j49795850830444_1_alg».proof.Proof.Region2
import proofs.«117535_j49795850830444_1_alg».proof.Proof.Region3
import proofs.«117535_j49795850830444_1_alg».proof.Proof.Region4
import proofs.«117535_j49795850830444_1_alg».proof.Proof.Region5
import proofs.«117535_j49795850830444_1_alg».proof.Proof.Region6
import proofs.«117535_j49795850830444_1_alg».proof.Proof.Region7

set_option maxRecDepth 16384

noncomputable section

namespace Cert.KernelIdeal.GcnSim

open Cert.KernelIdeal Cert.KernelIdeal.Gen
open Idealize.ShloMosaic Idealize.ShloMosaic.TcCoe Idealize.SL.Sem Idealize.ShloMosaic.StableHlo
open Cert.Gcn
open Idealize.ShloMosaic.Pipeline (Dat Cfg Window)

variable (m : (ℓ : Loc nD τ sig) → Buf (Elt Ideal) ℓ) (ρ : Dev nD → PrngReg)

/-- Grid 0 as one host operation. -/
abbrev op0 : HloOp τ sig (Elt Ideal) :=
  binary main_arg0 main_arg3 main_v30 ((fun x w => mm (M := 100000) (K := 64) (N := 128) x w) : (⟨S100000x64, .f32⟩ : BufTy).Contents (Elt Ideal) → (⟨S64x128, .f32⟩ : BufTy).Contents (Elt Ideal) → (⟨S100000x128, .f32⟩ : BufTy).Contents (Elt Ideal))

/-- Grid 0 leaves the buffers as that operation does. -/
theorem step0 (c : Dev nD) : W4 m ρ c = (op0).result (W3 m ρ c) := by
  funext b
  by_cases hb : b ∈ (op0 : HloOp τ sig (Elt Ideal)).writes
  · have hb' : b = Proc.devRef .tc main_v30 := by
      rw [binary_writes, Finset.mem_singleton] at hb
      exact hb
    subst hb'
    refine Eq.trans (W4_arr m ρ c 2) (Eq.trans (Cert.KernelIdeal.Gcn0.arr (V3 m ρ) c) ?_)
    refine Eq.symm ?_
    exact binary_result main_arg0 main_arg3 main_v30 _ _ _ _ (W3 m ρ c)
  · rw [HloOp.result_of_not_mem _ _ hb]
    by_cases h : ∃ w, Proc.devRef .tc (Pipeline.arrRef spec0 w) = b
    · obtain ⟨w, rfl⟩ := h
      match w with
      | ⟨0, _⟩ => exact (W4_arr m ρ c 0).trans (((dat0 (V3 m ρ) c).arrAt_in 0 rfl _).trans (A_eq0 (V3 m ρ) c 0))
      | ⟨1, _⟩ => exact (W4_arr m ρ c 1).trans (((dat0 (V3 m ρ) c).arrAt_in 1 rfl _).trans (A_eq0 (V3 m ρ) c 1))
      | ⟨2, _⟩ =>
        exfalso
        apply hb
        rw [binary_writes, Finset.mem_singleton]
    · unfold W4 Pipeline.withArrays
      rw [dif_neg h]

/-- Grid 1 as one host operation. -/
abbrev op1 : HloOp τ sig (Elt Ideal) :=
  binary main_v43 main_v44 main_v45 ((fun x b => relu (biasRow (M := 100000) (N := 128) x b)) : (⟨S100000x128, .f32⟩ : BufTy).Contents (Elt Ideal) → (⟨S1x128, .f32⟩ : BufTy).Contents (Elt Ideal) → (⟨S100000x128, .f32⟩ : BufTy).Contents (Elt Ideal))

/-- Grid 1 leaves the buffers as that operation does. -/
theorem step1 (c : Dev nD) : W6 m ρ c = (op1).result (W5 m ρ c) := by
  funext b
  by_cases hb : b ∈ (op1 : HloOp τ sig (Elt Ideal)).writes
  · have hb' : b = Proc.devRef .tc main_v45 := by
      rw [binary_writes, Finset.mem_singleton] at hb
      exact hb
    subst hb'
    refine Eq.trans (W6_arr m ρ c 2) (Eq.trans (Cert.KernelIdeal.Gcn1.arr (V5 m ρ) c) ?_)
    refine Eq.symm ?_
    exact binary_result main_v43 main_v44 main_v45 _ _ _ _ (W5 m ρ c)
  · rw [HloOp.result_of_not_mem _ _ hb]
    by_cases h : ∃ w, Proc.devRef .tc (Pipeline.arrRef spec1 w) = b
    · obtain ⟨w, rfl⟩ := h
      match w with
      | ⟨0, _⟩ => exact (W6_arr m ρ c 0).trans (((dat1 (V5 m ρ) c).arrAt_in 0 rfl _).trans (A_eq1 (V5 m ρ) c 0))
      | ⟨1, _⟩ => exact (W6_arr m ρ c 1).trans (((dat1 (V5 m ρ) c).arrAt_in 1 rfl _).trans (A_eq1 (V5 m ρ) c 1))
      | ⟨2, _⟩ =>
        exfalso
        apply hb
        rw [binary_writes, Finset.mem_singleton]
    · unfold W6 Pipeline.withArrays
      rw [dif_neg h]

/-- Grid 2 as one host operation. -/
abbrev op2 : HloOp τ sig (Elt Ideal) :=
  binary main_v45 main_arg5 main_v46 ((fun x w => mm (M := 100000) (K := 128) (N := 64) x w) : (⟨S100000x128, .f32⟩ : BufTy).Contents (Elt Ideal) → (⟨S128x64, .f32⟩ : BufTy).Contents (Elt Ideal) → (⟨S100000x64, .f32⟩ : BufTy).Contents (Elt Ideal))

/-- Grid 2 leaves the buffers as that operation does. -/
theorem step2 (c : Dev nD) : W7 m ρ c = (op2).result (W6 m ρ c) := by
  funext b
  by_cases hb : b ∈ (op2 : HloOp τ sig (Elt Ideal)).writes
  · have hb' : b = Proc.devRef .tc main_v46 := by
      rw [binary_writes, Finset.mem_singleton] at hb
      exact hb
    subst hb'
    refine Eq.trans (W7_arr m ρ c 2) (Eq.trans (Cert.KernelIdeal.Gcn2.arr (V6 m ρ) c) ?_)
    refine Eq.symm ?_
    exact binary_result main_v45 main_arg5 main_v46 _ _ _ _ (W6 m ρ c)
  · rw [HloOp.result_of_not_mem _ _ hb]
    by_cases h : ∃ w, Proc.devRef .tc (Pipeline.arrRef spec2 w) = b
    · obtain ⟨w, rfl⟩ := h
      match w with
      | ⟨0, _⟩ => exact (W7_arr m ρ c 0).trans (((dat2 (V6 m ρ) c).arrAt_in 0 rfl _).trans (A_eq2 (V6 m ρ) c 0))
      | ⟨1, _⟩ => exact (W7_arr m ρ c 1).trans (((dat2 (V6 m ρ) c).arrAt_in 1 rfl _).trans (A_eq2 (V6 m ρ) c 1))
      | ⟨2, _⟩ =>
        exfalso
        apply hb
        rw [binary_writes, Finset.mem_singleton]
    · unfold W7 Pipeline.withArrays
      rw [dif_neg h]

/-- Grid 3 as one host operation. -/
abbrev op3 : HloOp τ sig (Elt Ideal) :=
  binary main_v59 main_v60 main_v61 ((fun x b => biasRow (M := 100000) (N := 64) x b) : (⟨S100000x64, .f32⟩ : BufTy).Contents (Elt Ideal) → (⟨S1x64, .f32⟩ : BufTy).Contents (Elt Ideal) → (⟨S100000x64, .f32⟩ : BufTy).Contents (Elt Ideal))

/-- Grid 3 leaves the buffers as that operation does. -/
theorem step3 (c : Dev nD) : W9 m ρ c = (op3).result (W8 m ρ c) := by
  funext b
  by_cases hb : b ∈ (op3 : HloOp τ sig (Elt Ideal)).writes
  · have hb' : b = Proc.devRef .tc main_v61 := by
      rw [binary_writes, Finset.mem_singleton] at hb
      exact hb
    subst hb'
    refine Eq.trans (W9_arr m ρ c 2) (Eq.trans (Cert.KernelIdeal.Gcn3.arr (V8 m ρ) c) ?_)
    refine Eq.symm ?_
    exact binary_result main_v59 main_v60 main_v61 _ _ _ _ (W8 m ρ c)
  · rw [HloOp.result_of_not_mem _ _ hb]
    by_cases h : ∃ w, Proc.devRef .tc (Pipeline.arrRef spec3 w) = b
    · obtain ⟨w, rfl⟩ := h
      match w with
      | ⟨0, _⟩ => exact (W9_arr m ρ c 0).trans (((dat3 (V8 m ρ) c).arrAt_in 0 rfl _).trans (A_eq3 (V8 m ρ) c 0))
      | ⟨1, _⟩ => exact (W9_arr m ρ c 1).trans (((dat3 (V8 m ρ) c).arrAt_in 1 rfl _).trans (A_eq3 (V8 m ρ) c 1))
      | ⟨2, _⟩ =>
        exfalso
        apply hb
        rw [binary_writes, Finset.mem_singleton]
    · unfold W9 Pipeline.withArrays
      rw [dif_neg h]

/-- Grid 4 as one host operation. -/
abbrev op4 : HloOp τ sig (Elt Ideal) :=
  binary main_v61 main_arg3 main_v92 ((fun x w => mm (M := 100000) (K := 64) (N := 128) x w) : (⟨S100000x64, .f32⟩ : BufTy).Contents (Elt Ideal) → (⟨S64x128, .f32⟩ : BufTy).Contents (Elt Ideal) → (⟨S100000x128, .f32⟩ : BufTy).Contents (Elt Ideal))

/-- Grid 4 leaves the buffers as that operation does. -/
theorem step4 (c : Dev nD) : W13 m ρ c = (op4).result (W12 m ρ c) := by
  funext b
  by_cases hb : b ∈ (op4 : HloOp τ sig (Elt Ideal)).writes
  · have hb' : b = Proc.devRef .tc main_v92 := by
      rw [binary_writes, Finset.mem_singleton] at hb
      exact hb
    subst hb'
    refine Eq.trans (W13_arr m ρ c 2) (Eq.trans (Cert.KernelIdeal.Gcn4.arr (V12 m ρ) c) ?_)
    refine Eq.symm ?_
    exact binary_result main_v61 main_arg3 main_v92 _ _ _ _ (W12 m ρ c)
  · rw [HloOp.result_of_not_mem _ _ hb]
    by_cases h : ∃ w, Proc.devRef .tc (Pipeline.arrRef spec4 w) = b
    · obtain ⟨w, rfl⟩ := h
      match w with
      | ⟨0, _⟩ => exact (W13_arr m ρ c 0).trans (((dat4 (V12 m ρ) c).arrAt_in 0 rfl _).trans (A_eq4 (V12 m ρ) c 0))
      | ⟨1, _⟩ => exact (W13_arr m ρ c 1).trans (((dat4 (V12 m ρ) c).arrAt_in 1 rfl _).trans (A_eq4 (V12 m ρ) c 1))
      | ⟨2, _⟩ =>
        exfalso
        apply hb
        rw [binary_writes, Finset.mem_singleton]
    · unfold W13 Pipeline.withArrays
      rw [dif_neg h]

/-- Grid 5 as one host operation. -/
abbrev op5 : HloOp τ sig (Elt Ideal) :=
  binary main_v105 main_v106 main_v107 ((fun x b => relu (biasRow (M := 100000) (N := 128) x b)) : (⟨S100000x128, .f32⟩ : BufTy).Contents (Elt Ideal) → (⟨S1x128, .f32⟩ : BufTy).Contents (Elt Ideal) → (⟨S100000x128, .f32⟩ : BufTy).Contents (Elt Ideal))

/-- Grid 5 leaves the buffers as that operation does. -/
theorem step5 (c : Dev nD) : W15 m ρ c = (op5).result (W14 m ρ c) := by
  funext b
  by_cases hb : b ∈ (op5 : HloOp τ sig (Elt Ideal)).writes
  · have hb' : b = Proc.devRef .tc main_v107 := by
      rw [binary_writes, Finset.mem_singleton] at hb
      exact hb
    subst hb'
    refine Eq.trans (W15_arr m ρ c 2) (Eq.trans (Cert.KernelIdeal.Gcn5.arr (V14 m ρ) c) ?_)
    refine Eq.symm ?_
    exact binary_result main_v105 main_v106 main_v107 _ _ _ _ (W14 m ρ c)
  · rw [HloOp.result_of_not_mem _ _ hb]
    by_cases h : ∃ w, Proc.devRef .tc (Pipeline.arrRef spec5 w) = b
    · obtain ⟨w, rfl⟩ := h
      match w with
      | ⟨0, _⟩ => exact (W15_arr m ρ c 0).trans (((dat5 (V14 m ρ) c).arrAt_in 0 rfl _).trans (A_eq5 (V14 m ρ) c 0))
      | ⟨1, _⟩ => exact (W15_arr m ρ c 1).trans (((dat5 (V14 m ρ) c).arrAt_in 1 rfl _).trans (A_eq5 (V14 m ρ) c 1))
      | ⟨2, _⟩ =>
        exfalso
        apply hb
        rw [binary_writes, Finset.mem_singleton]
    · unfold W15 Pipeline.withArrays
      rw [dif_neg h]

/-- Grid 6 as one host operation. -/
abbrev op6 : HloOp τ sig (Elt Ideal) :=
  binary main_v107 main_arg5 main_v108 ((fun x w => mm (M := 100000) (K := 128) (N := 64) x w) : (⟨S100000x128, .f32⟩ : BufTy).Contents (Elt Ideal) → (⟨S128x64, .f32⟩ : BufTy).Contents (Elt Ideal) → (⟨S100000x64, .f32⟩ : BufTy).Contents (Elt Ideal))

/-- Grid 6 leaves the buffers as that operation does. -/
theorem step6 (c : Dev nD) : W16 m ρ c = (op6).result (W15 m ρ c) := by
  funext b
  by_cases hb : b ∈ (op6 : HloOp τ sig (Elt Ideal)).writes
  · have hb' : b = Proc.devRef .tc main_v108 := by
      rw [binary_writes, Finset.mem_singleton] at hb
      exact hb
    subst hb'
    refine Eq.trans (W16_arr m ρ c 2) (Eq.trans (Cert.KernelIdeal.Gcn6.arr (V15 m ρ) c) ?_)
    refine Eq.symm ?_
    exact binary_result main_v107 main_arg5 main_v108 _ _ _ _ (W15 m ρ c)
  · rw [HloOp.result_of_not_mem _ _ hb]
    by_cases h : ∃ w, Proc.devRef .tc (Pipeline.arrRef spec6 w) = b
    · obtain ⟨w, rfl⟩ := h
      match w with
      | ⟨0, _⟩ => exact (W16_arr m ρ c 0).trans (((dat6 (V15 m ρ) c).arrAt_in 0 rfl _).trans (A_eq6 (V15 m ρ) c 0))
      | ⟨1, _⟩ => exact (W16_arr m ρ c 1).trans (((dat6 (V15 m ρ) c).arrAt_in 1 rfl _).trans (A_eq6 (V15 m ρ) c 1))
      | ⟨2, _⟩ =>
        exfalso
        apply hb
        rw [binary_writes, Finset.mem_singleton]
    · unfold W16 Pipeline.withArrays
      rw [dif_neg h]

/-- Grid 7 as one host operation. -/
abbrev op7 : HloOp τ sig (Elt Ideal) :=
  binary main_v121 main_v122 main_v123 ((fun x b => lsm (biasRow (M := 100000) (N := 64) x b)) : (⟨S100000x64, .f32⟩ : BufTy).Contents (Elt Ideal) → (⟨S1x64, .f32⟩ : BufTy).Contents (Elt Ideal) → (⟨S100000x64, .f32⟩ : BufTy).Contents (Elt Ideal))

/-- Grid 7 leaves the buffers as that operation does. -/
theorem step7 (c : Dev nD) : W18 m ρ c = (op7).result (W17 m ρ c) := by
  funext b
  by_cases hb : b ∈ (op7 : HloOp τ sig (Elt Ideal)).writes
  · have hb' : b = Proc.devRef .tc main_v123 := by
      rw [binary_writes, Finset.mem_singleton] at hb
      exact hb
    subst hb'
    refine Eq.trans (W18_arr m ρ c 2) (Eq.trans (Cert.KernelIdeal.Gcn7.arr (V17 m ρ) c) ?_)
    refine Eq.symm ?_
    exact binary_result main_v121 main_v122 main_v123 _ _ _ _ (W17 m ρ c)
  · rw [HloOp.result_of_not_mem _ _ hb]
    by_cases h : ∃ w, Proc.devRef .tc (Pipeline.arrRef spec7 w) = b
    · obtain ⟨w, rfl⟩ := h
      match w with
      | ⟨0, _⟩ => exact (W18_arr m ρ c 0).trans (((dat7 (V17 m ρ) c).arrAt_in 0 rfl _).trans (A_eq7 (V17 m ρ) c 0))
      | ⟨1, _⟩ => exact (W18_arr m ρ c 1).trans (((dat7 (V17 m ρ) c).arrAt_in 1 rfl _).trans (A_eq7 (V17 m ρ) c 1))
      | ⟨2, _⟩ =>
        exfalso
        apply hb
        rw [binary_writes, Finset.mem_singleton]
    · unfold W18 Pipeline.withArrays
      rw [dif_neg h]

/-- The buffer contents at the last boundary: the host stretches and the eight operations, folded from the launch
    memory in program order. -/
theorem last_eq (c : Dev nD) :
    W18 m ρ c = ((op7).result (after hostOps7 ((op6).result ((op5).result (after hostOps5 ((op4).result (after hostOps4_2 (after hostOps4_1 (after hostOps4 ((op3).result (after hostOps3 ((op2).result ((op1).result (after hostOps1 ((op0).result (after hostOps0_2 (after hostOps0_1 (after hostOps0 (W0 m ρ c))))))))))))))))))) := by
  rw [step7 m ρ c]
  show ((op7).result (after hostOps7 (W16 m ρ c))) = _
  rw [step6 m ρ c, step5 m ρ c]
  show ((op7).result (after hostOps7 ((op6).result ((op5).result (after hostOps5 (W13 m ρ c)))))) = _
  rw [step4 m ρ c]
  show ((op7).result (after hostOps7 ((op6).result ((op5).result (after hostOps5 ((op4).result (after hostOps4_2 (after hostOps4_1 (after hostOps4 (W9 m ρ c)))))))))) = _
  rw [step3 m ρ c]
  show ((op7).result (after hostOps7 ((op6).result ((op5).result (after hostOps5 ((op4).result (after hostOps4_2 (after hostOps4_1 (after hostOps4 ((op3).result (after hostOps3 (W7 m ρ c)))))))))))) = _
  rw [step2 m ρ c, step1 m ρ c]
  show ((op7).result (after hostOps7 ((op6).result ((op5).result (after hostOps5 ((op4).result (after hostOps4_2 (after hostOps4_1 (after hostOps4 ((op3).result (after hostOps3 ((op2).result ((op1).result (after hostOps1 (W4 m ρ c))))))))))))))) = _
  rw [step0 m ρ c]

end Cert.KernelIdeal.GcnSim

end
-- ==== Proof.RefStages.lean ====
/-
  The reference's own spellings of the dense stages, at its printed shapes and at the exact instance, read as the
  functions of the specification: its two matrix products, its bias additions (the bias broadcast to one row and then
  down the rows), its rectifier (the maximum against a broadcast zero) and its row log-softmax.
-/
import proofs.«117535_j49795850830444_1_alg».proof.Proof.Gen.ReferenceIdeal
import proofs.«117535_j49795850830444_1_alg».proof.Proof.SpecLsm

noncomputable section

namespace Cert.ReferenceIdeal.Stages

open Cert.ReferenceIdeal Cert.ReferenceIdeal.Gen Idealize.ShloMosaic Idealize.ShloMosaic.ValueIdx Cert.Gcn Cert.LibDense

theorem dotA_l0 (i : S100000x128.Idx) (q : dot_S100000x64_S64x128_S100000x128_1_0_0_1_n_n.contr.Idx) : (dot_S100000x64_S64x128_S100000x128_1_0_0_1_n_n.lhsIdx i q 0).val = (i 0).val := by
  unfold DotDims.lhsIdx
  rw [dif_neg (show ¬(0 : Fin S100000x64.rank) ∈ dot_S100000x64_S64x128_S100000x128_1_0_0_1_n_n.lhsBatch by decide), dif_pos (show (0 : Fin S100000x64.rank) ∈ dot_S100000x64_S64x128_S100000x128_1_0_0_1_n_n.lhsNonContracting by decide)]
  rfl
theorem dotA_l1 (i : S100000x128.Idx) (q : dot_S100000x64_S64x128_S100000x128_1_0_0_1_n_n.contr.Idx) : (dot_S100000x64_S64x128_S100000x128_1_0_0_1_n_n.lhsIdx i q 1).val = (q ⟨0, by decide⟩).val :=
  dot_S100000x64_S64x128_S100000x128_1_0_0_1_n_n.lhsIdx_val_of_single rfl i q
theorem dotA_r0 (i : S100000x128.Idx) (q : dot_S100000x64_S64x128_S100000x128_1_0_0_1_n_n.contr.Idx) : (dot_S100000x64_S64x128_S100000x128_1_0_0_1_n_n.rhsIdx i q 0).val = (q ⟨0, by decide⟩).val :=
  dot_S100000x64_S64x128_S100000x128_1_0_0_1_n_n.rhsIdx_val_of_single rfl i q
theorem dotA_r1 (i : S100000x128.Idx) (q : dot_S100000x64_S64x128_S100000x128_1_0_0_1_n_n.contr.Idx) : (dot_S100000x64_S64x128_S100000x128_1_0_0_1_n_n.rhsIdx i q 1).val = (i 1).val := by
  unfold DotDims.rhsIdx
  rw [dif_neg (show ¬(1 : Fin S64x128.rank) ∈ dot_S100000x64_S64x128_S100000x128_1_0_0_1_n_n.rhsBatch by decide), dif_pos (show (1 : Fin S64x128.rank) ∈ dot_S100000x64_S64x128_S100000x128_1_0_0_1_n_n.rhsNonContracting by decide)]
  rfl

/-- The host's product of a [100000, 64] by a [64, 128] matrix is the specification's matrix product. -/
theorem dotA (x : FVec Ideal S100000x64 .f32) (w : FVec Ideal S64x128 .f32) :
    Host.dotGeneral dot_S100000x64_S64x128_S100000x128_1_0_0_1_n_n none x w = mm (M := 100000) (K := 64) (N := 128) x w := by
  funext i
  obtain ⟨p, q, rfl⟩ : ∃ (p : Fin 100000) (q : Fin 128), i = ix2 p q := ⟨i 0, i 1, eq_ix2 i⟩
  rw [mm_apply]
  exact Cert.LibHostDot.dotGeneral_rc (M := 100000) (K := 64) (N := 128) dot_S100000x64_S64x128_S100000x128_1_0_0_1_n_n rfl rfl dotA_l0 dotA_l1 dotA_r0 dotA_r1 none x w p q

theorem dotB_l0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dotB_l1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem dotB_r0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem dotB_r1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's product of a [100000, 128] by a [128, 64] matrix is the specification's matrix product. -/
theorem dotB (x : FVec Ideal S100000x128 .f32) (w : FVec Ideal S128x64 .f32) :
    Host.dotGeneral dot_S100000x128_S128x64_S100000x64_1_0_0_1_n_n none x w = mm (M := 100000) (K := 128) (N := 64) x w := by
  funext i
  obtain ⟨p, q, rfl⟩ : ∃ (p : Fin 100000) (q : Fin 64), i = ix2 p q := ⟨i 0, i 1, eq_ix2 i⟩
  rw [mm_apply]
  exact Cert.LibHostDot.dotGeneral_rc (M := 100000) (K := 128) (N := 64) dot_S100000x128_S128x64_S100000x64_1_0_0_1_n_n rfl rfl dotB_l0 dotB_l1 dotB_r0 dotB_r1 none x w p q

/-- The reference adds the 128-wide bias to every row. -/
theorem bias128 (a : FVec Ideal S100000x128 .f32) (b : FVec Ideal S128 .f32) :
    addf a (broadcastInDim S100000x128 ![0, 1] bcast_S1x128_S100000x128_0_1 (broadcastInDim S1x128 ![1] bcast_S128_S1x128_1 b))
      = bias (M := 100000) (N := 128) a b :=
  host_bias (M := 100000) (N := 128) (by decide) a b _ _

/-- The reference adds the 64-wide bias to every row. -/
theorem bias64 (a : FVec Ideal S100000x64 .f32) (b : FVec Ideal S64 .f32) :
    addf a (broadcastInDim S100000x64 ![0, 1] bcast_S1x64_S100000x64_0_1 (broadcastInDim S1x64 ![1] bcast_S64_S1x64_1 b))
      = bias (M := 100000) (N := 64) a b :=
  host_bias (M := 100000) (N := 64) (by decide) a b _ _

/-- The reference's rectifier on the 128-wide hidden layer. -/
theorem relu128 (v : FVec Ideal S100000x128 .f32) :
    maximumf v (broadcastInDim S100000x128 ![] bcast_S_S100000x128 (constant (F := Ideal) S_ .f32 0x00000000#32))
      = relu (M := 100000) (N := 128) v :=
  host_relu (M := 100000) (N := 128) v _

/-- The reference's row log-softmax on the 64-wide output. -/
theorem lsm64 (v : FVec Ideal S100000x64 .f32) :
    subf (subf v (broadcastInDim S100000x64 ![0, 1] bcast_S100000x1_S100000x64_0_1 (broadcastInDim S100000x1 ![0] bcast_S100000_S100000x1_0
        (maximumf (broadcastInDim S100000 ![] bcast_S_S100000 (constant (F := Ideal) S_ .f32 0xFF800000#32))
          (Host.reduce (FloatOps.maximumf (F := Ideal) (φ := .f32)) v (constant (F := Ideal) S_ .f32 0xFF800000#32) reducesTo_S100000x64_S100000_d1 h_S_)))))
      (broadcastInDim S100000x64 ![0, 1] bcast_S100000x1_S100000x64_0_1 (Host.log (broadcastInDim S100000x1 ![0] bcast_S100000_S100000x1_0
        (Host.reduceAdd (Host.exp (subf v (broadcastInDim S100000x64 ![0, 1] bcast_S100000x1_S100000x64_0_1 (broadcastInDim S100000x1 ![0] bcast_S100000_S100000x1_0
          (maximumf (broadcastInDim S100000 ![] bcast_S_S100000 (constant (F := Ideal) S_ .f32 0xFF800000#32))
            (Host.reduce (FloatOps.maximumf (F := Ideal) (φ := .f32)) v (constant (F := Ideal) S_ .f32 0xFF800000#32) reducesTo_S100000x64_S100000_d1 h_S_))))))
          (constant (F := Ideal) S_ .f32 0x00000000#32) reducesTo_S100000x64_S100000_d1 h_S_))))
      = lsm (M := 100000) (N := 64) v :=
  host_lsm (M := 100000) (N := 64) v (by decide) _ _ _ _ _

end Cert.ReferenceIdeal.Stages

end
-- ==== Proof.LibConcat.lean ====
/-
  General facts for computing what a straight line of host operations leaves in a buffer. A concatenation of two pieces: as a function of the two pieces' contents it is an ordinary
  two-argument function, so that an equation between contents can be used inside it (the list of shaped pieces that
  the concatenation takes fixes the type of its shape fact, and a rewrite cannot enter it). With it, the contents a
  straight line of host operations leaves in a buffer compute all the way down to the launch contents.
-/
import Idealize.ShloMosaic.Lib.StableHlo.Run

noncomputable section

namespace Cert.LibConcat

open Idealize.ShloMosaic Idealize.ShloMosaic.StableHlo

/-- Two pieces joined along an axis, as a function of the pieces' contents. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The concatenation of a two-piece list is that function of the pieces. -/
theorem concatenate_pair {α : Type} (t : Shape) (a : Fin t.rank) (s1 s2 : Shape) (h : Shape.Concatenates [s1, s2] t a)
    (x : s1.Idx → α) (y : s2.Idx → α) :
    concatenate t a [⟨s1, x⟩, ⟨s2, y⟩] h = concat2 t a s1 s2 h x y := rfl

/-- A value written to a typed reference's buffer and read back is the value: the two transports along the reference's
    type equation cancel. -/
theorem ofBuf_toBuf {sig : RefSig} {Val : EltTy → Type} {T : BufTy} (x : TRef sig T) (v : T.Contents Val) :
    x.ofBuf (x.toBuf v) = v := by
  obtain ⟨r, h, hd, hu⟩ := x
  subst h
  rfl

/-- The contents of a buffer after a literal line of host operations, computed down to the contents before the line:
    one pass over the operations' result lemmas, entering the two-piece concatenations. -/
macro "eval_after" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcat.concatenate_pair]))

end Cert.LibConcat

end
-- ==== Proof.StagesAbs.lean ====
/-
  The reference, stretch by stretch, against the kernel's host stretches and grids. Each lemma takes the buffer
  contents before a stretch on both sides as given, equal on the few buffers the stretch reads, computes what the
  stretch leaves in its result buffer on each side, and compares: the dense stage by the specification's function,
  the gathers, scalings and scatter-adds around it term by term.
-/
import proofs.«117535_j49795850830444_1_alg».proof.Proof.Sim
import proofs.«117535_j49795850830444_1_alg».proof.Proof.RefRun
import proofs.«117535_j49795850830444_1_alg».proof.Proof.RefStages
import proofs.«117535_j49795850830444_1_alg».proof.Proof.LibConcat

set_option maxRecDepth 131072

noncomputable section

namespace Cert.GcnBridge

open Idealize.ShloMosaic Idealize.ShloMosaic.TcCoe Idealize.SL.Sem Idealize.ShloMosaic.StableHlo
open Cert.Gcn Cert.LibConcat

/-- One stretch of the reference (a matrix product of a dense value by a weight matrix) against the kernel's host stretch and grid: from buffer contents that agree on what the
    stretch reads, the results agree. -/
theorem stageD1 (VR : Valuation Cert.ReferenceIdeal.τ Cert.ReferenceIdeal.sig (Elt Ideal)) (VK : Valuation Cert.KernelIdeal.τ Cert.KernelIdeal.sig (Elt Ideal))
    (h0 : VR (Proc.devRef .tc Cert.ReferenceIdeal.main_arg0) = VK (Proc.devRef .tc Cert.KernelIdeal.main_arg0))
    (h1 : VR (Proc.devRef .tc Cert.ReferenceIdeal.main_arg3) = VK (Proc.devRef .tc Cert.KernelIdeal.main_arg3)) :
    after (((Cert.ReferenceIdeal.ValueP.ops (F := Ideal)).take 41).drop 40) VR (Proc.devRef .tc Cert.ReferenceIdeal.main_v30) = ((Cert.KernelIdeal.GcnSim.op0).result VK) (Proc.devRef .tc Cert.KernelIdeal.main_v30) := by
  simp only [Cert.ReferenceIdeal.ValueP.ops, List.take_succ_cons, List.take_zero, List.drop_succ_cons, List.drop_zero]
  dsimp only [Cert.KernelIdeal.GcnSim.op0]
  eval_after
  rw [h0, h1]

  exact Cert.ReferenceIdeal.Stages.dotA _ _

/-- One stretch of the reference (the gather, scaling and scatter-add of a convolution, its bias and the rectifier) against the kernel's host stretch and grid: from buffer contents that agree on what the
    stretch reads, the results agree. The reference's last step is a called function, read first over the contents
    its plain operations leave. -/
theorem stageA1 (VR : Valuation Cert.ReferenceIdeal.τ Cert.ReferenceIdeal.sig (Elt Ideal)) (VK : Valuation Cert.KernelIdeal.τ Cert.KernelIdeal.sig (Elt Ideal))
    (h0 : VR (Proc.devRef .tc Cert.ReferenceIdeal.main_v30) = VK (Proc.devRef .tc Cert.KernelIdeal.main_v30))
    (h1 : VR (Proc.devRef .tc Cert.ReferenceIdeal.main_v3) = VK (Proc.devRef .tc Cert.KernelIdeal.main_v3))
    (h2 : VR (Proc.devRef .tc Cert.ReferenceIdeal.main_v6) = VK (Proc.devRef .tc Cert.KernelIdeal.main_v6))
    (h3 : VR (Proc.devRef .tc Cert.ReferenceIdeal.main_v29) = VK (Proc.devRef .tc Cert.KernelIdeal.main_v29))
    (h4 : VR (Proc.devRef .tc Cert.ReferenceIdeal.main_arg4) = VK (Proc.devRef .tc Cert.KernelIdeal.main_arg4)) :
    after (((Cert.ReferenceIdeal.ValueP.ops (F := Ideal)).take 63).drop 60) (after (((Cert.ReferenceIdeal.ValueP.ops (F := Ideal)).take 60).drop 41) VR) (Proc.devRef .tc Cert.ReferenceIdeal.main_v47) = ((Cert.KernelIdeal.GcnSim.op1).result (after Cert.KernelIdeal.Gen.hostOps1 VK)) (Proc.devRef .tc Cert.KernelIdeal.main_v45) := by
  generalize hK : ((Cert.KernelIdeal.GcnSim.op1).result (after Cert.KernelIdeal.Gen.hostOps1 VK)) (Proc.devRef .tc Cert.KernelIdeal.main_v45) = kx
  generalize hV : after (((Cert.ReferenceIdeal.ValueP.ops (F := Ideal)).take 60).drop 41) VR = V'
  simp only [Cert.ReferenceIdeal.ValueP.ops, List.take_succ_cons, List.take_zero, List.drop_succ_cons, List.drop_zero]
  eval_after
  simp only [Cert.LibConcat.ofBuf_toBuf]
  dsimp only [TRef.toBuf, TRef.ofBuf, cast_eq]
  subst hV
  subst hK
  refine (Cert.ReferenceIdeal.Stages.relu128 _).trans ?_
  refine congrArg (relu (M := 100000) (N := 128)) ?_
  simp only [Cert.ReferenceIdeal.ValueP.ops, List.take_succ_cons, List.take_zero, List.drop_succ_cons, List.drop_zero]
  dsimp only [Cert.KernelIdeal.Gen.hostOps1, Cert.KernelIdeal.GcnSim.op1]
  eval_after
  rw [h0, h1, h2, h3, h4]
  refine (Cert.ReferenceIdeal.Stages.bias128 _ _).trans ?_
  refine Eq.trans ?_ (biasRow_shapeCast (M := 100000) (N := 128) _ _ _).symm
  refine congrArg (fun z => bias (M := 100000) (N := 128) z _) ?_
  rfl

/-- One stretch of the reference (a matrix product of a dense value by a weight matrix) against the kernel's host stretch and grid: from buffer contents that agree on what the
    stretch reads, the results agree. -/
theorem stageD2 (VR : Valuation Cert.ReferenceIdeal.τ Cert.ReferenceIdeal.sig (Elt Ideal)) (VK : Valuation Cert.KernelIdeal.τ Cert.KernelIdeal.sig (Elt Ideal))
    (h0 : VR (Proc.devRef .tc Cert.ReferenceIdeal.main_v47) = VK (Proc.devRef .tc Cert.KernelIdeal.main_v45))
    (h1 : VR (Proc.devRef .tc Cert.ReferenceIdeal.main_arg5) = VK (Proc.devRef .tc Cert.KernelIdeal.main_arg5)) :
    after (((Cert.ReferenceIdeal.ValueP.ops (F := Ideal)).take 104).drop 103) VR (Proc.devRef .tc Cert.ReferenceIdeal.main_v78) = ((Cert.KernelIdeal.GcnSim.op2).result VK) (Proc.devRef .tc Cert.KernelIdeal.main_v46) := by
  simp only [Cert.ReferenceIdeal.ValueP.ops, List.take_succ_cons, List.take_zero, List.drop_succ_cons, List.drop_zero]
  dsimp only [Cert.KernelIdeal.GcnSim.op2]
  eval_after
  rw [h0, h1]

  exact Cert.ReferenceIdeal.Stages.dotB _ _

/-- One stretch of the reference (the gather, scaling and scatter-add of a convolution and its bias) against the kernel's host stretch and grid: from buffer contents that agree on what the
    stretch reads, the results agree. -/
theorem stageA2 (VR : Valuation Cert.ReferenceIdeal.τ Cert.ReferenceIdeal.sig (Elt Ideal)) (VK : Valuation Cert.KernelIdeal.τ Cert.KernelIdeal.sig (Elt Ideal))
    (h0 : VR (Proc.devRef .tc Cert.ReferenceIdeal.main_v78) = VK (Proc.devRef .tc Cert.KernelIdeal.main_v46))
    (h1 : VR (Proc.devRef .tc Cert.ReferenceIdeal.main_v51) = VK (Proc.devRef .tc Cert.KernelIdeal.main_v3))
    (h2 : VR (Proc.devRef .tc Cert.ReferenceIdeal.main_v54) = VK (Proc.devRef .tc Cert.KernelIdeal.main_v6))
    (h3 : VR (Proc.devRef .tc Cert.ReferenceIdeal.main_v77) = VK (Proc.devRef .tc Cert.KernelIdeal.main_v29))
    (h4 : VR (Proc.devRef .tc Cert.ReferenceIdeal.main_arg6) = VK (Proc.devRef .tc Cert.KernelIdeal.main_arg6)) :
    after (((Cert.ReferenceIdeal.ValueP.ops (F := Ideal)).take 123).drop 104) VR (Proc.devRef .tc Cert.ReferenceIdeal.main_v94) = ((Cert.KernelIdeal.GcnSim.op3).result (after Cert.KernelIdeal.Gen.hostOps3 VK)) (Proc.devRef .tc Cert.KernelIdeal.main_v61) := by
  simp only [Cert.ReferenceIdeal.ValueP.ops, List.take_succ_cons, List.take_zero, List.drop_succ_cons, List.drop_zero]
  dsimp only [Cert.KernelIdeal.Gen.hostOps3, Cert.KernelIdeal.GcnSim.op3]
  eval_after
  rw [h0, h1, h2, h3, h4]
  refine (Cert.ReferenceIdeal.Stages.bias64 _ _).trans ?_
  refine Eq.trans ?_ (biasRow_shapeCast (M := 100000) (N := 64) _ _ _).symm
  refine congrArg (fun z => bias (M := 100000) (N := 64) z _) ?_
  rfl

end Cert.GcnBridge

end
-- ==== Proof.StagesAbs2.lean ====
/-
  The reference, stretch by stretch, against the kernel's host stretches and grids. Each lemma takes the buffer
  contents before a stretch on both sides as given, equal on the few buffers the stretch reads, computes what the
  stretch leaves in its result buffer on each side, and compares: the dense stage by the specification's function,
  the gathers, scalings and scatter-adds around it term by term.
-/
import proofs.«117535_j49795850830444_1_alg».proof.Proof.Sim
import proofs.«117535_j49795850830444_1_alg».proof.Proof.RefRun
import proofs.«117535_j49795850830444_1_alg».proof.Proof.RefStages
import proofs.«117535_j49795850830444_1_alg».proof.Proof.LibConcat

set_option maxRecDepth 131072

noncomputable section

namespace Cert.GcnBridge

open Idealize.ShloMosaic Idealize.ShloMosaic.TcCoe Idealize.SL.Sem Idealize.ShloMosaic.StableHlo
open Cert.Gcn Cert.LibConcat

/-- One stretch of the reference (a matrix product of a dense value by a weight matrix) against the kernel's host stretch and grid: from buffer contents that agree on what the
    stretch reads, the results agree. -/
theorem stageD3 (VR : Valuation Cert.ReferenceIdeal.τ Cert.ReferenceIdeal.sig (Elt Ideal)) (VK : Valuation Cert.KernelIdeal.τ Cert.KernelIdeal.sig (Elt Ideal))
    (h0 : VR (Proc.devRef .tc Cert.ReferenceIdeal.main_v94) = VK (Proc.devRef .tc Cert.KernelIdeal.main_v61))
    (h1 : VR (Proc.devRef .tc Cert.ReferenceIdeal.main_arg3) = VK (Proc.devRef .tc Cert.KernelIdeal.main_arg3)) :
    after (((Cert.ReferenceIdeal.ValueP.ops (F := Ideal)).take 164).drop 163) VR (Proc.devRef .tc Cert.ReferenceIdeal.main_v125) = ((Cert.KernelIdeal.GcnSim.op4).result VK) (Proc.devRef .tc Cert.KernelIdeal.main_v92) := by
  simp only [Cert.ReferenceIdeal.ValueP.ops, List.take_succ_cons, List.take_zero, List.drop_succ_cons, List.drop_zero]
  dsimp only [Cert.KernelIdeal.GcnSim.op4]
  eval_after
  rw [h0, h1]

  exact Cert.ReferenceIdeal.Stages.dotA _ _

/-- One stretch of the reference (the gather, scaling and scatter-add of a convolution, its bias and the rectifier) against the kernel's host stretch and grid: from buffer contents that agree on what the
    stretch reads, the results agree. The reference's last step is a called function, read first over the contents
    its plain operations leave. -/
theorem stageA3 (VR : Valuation Cert.ReferenceIdeal.τ Cert.ReferenceIdeal.sig (Elt Ideal)) (VK : Valuation Cert.KernelIdeal.τ Cert.KernelIdeal.sig (Elt Ideal))
    (h0 : VR (Proc.devRef .tc Cert.ReferenceIdeal.main_v125) = VK (Proc.devRef .tc Cert.KernelIdeal.main_v92))
    (h1 : VR (Proc.devRef .tc Cert.ReferenceIdeal.main_v98) = VK (Proc.devRef .tc Cert.KernelIdeal.main_v65))
    (h2 : VR (Proc.devRef .tc Cert.ReferenceIdeal.main_v101) = VK (Proc.devRef .tc Cert.KernelIdeal.main_v68))
    (h3 : VR (Proc.devRef .tc Cert.ReferenceIdeal.main_v124) = VK (Proc.devRef .tc Cert.KernelIdeal.main_v91))
    (h4 : VR (Proc.devRef .tc Cert.ReferenceIdeal.main_arg4) = VK (Proc.devRef .tc Cert.KernelIdeal.main_arg4)) :
    after (((Cert.ReferenceIdeal.ValueP.ops (F := Ideal)).take 186).drop 183) (after (((Cert.ReferenceIdeal.ValueP.ops (F := Ideal)).take 183).drop 164) VR) (Proc.devRef .tc Cert.ReferenceIdeal.main_v142) = ((Cert.KernelIdeal.GcnSim.op5).result (after Cert.KernelIdeal.Gen.hostOps5 VK)) (Proc.devRef .tc Cert.KernelIdeal.main_v107) := by
  generalize hK : ((Cert.KernelIdeal.GcnSim.op5).result (after Cert.KernelIdeal.Gen.hostOps5 VK)) (Proc.devRef .tc Cert.KernelIdeal.main_v107) = kx
  generalize hV : after (((Cert.ReferenceIdeal.ValueP.ops (F := Ideal)).take 183).drop 164) VR = V'
  simp only [Cert.ReferenceIdeal.ValueP.ops, List.take_succ_cons, List.take_zero, List.drop_succ_cons, List.drop_zero]
  eval_after
  simp only [Cert.LibConcat.ofBuf_toBuf]
  dsimp only [TRef.toBuf, TRef.ofBuf, cast_eq]
  subst hV
  subst hK
  refine (Cert.ReferenceIdeal.Stages.relu128 _).trans ?_
  refine congrArg (relu (M := 100000) (N := 128)) ?_
  simp only [Cert.ReferenceIdeal.ValueP.ops, List.take_succ_cons, List.take_zero, List.drop_succ_cons, List.drop_zero]
  dsimp only [Cert.KernelIdeal.Gen.hostOps5, Cert.KernelIdeal.GcnSim.op5]
  eval_after
  rw [h0, h1, h2, h3, h4]
  refine (Cert.ReferenceIdeal.Stages.bias128 _ _).trans ?_
  refine Eq.trans ?_ (biasRow_shapeCast (M := 100000) (N := 128) _ _ _).symm
  refine congrArg (fun z => bias (M := 100000) (N := 128) z _) ?_
  rfl

/-- One stretch of the reference (a matrix product of a dense value by a weight matrix) against the kernel's host stretch and grid: from buffer contents that agree on what the
    stretch reads, the results agree. -/
theorem stageD4 (VR : Valuation Cert.ReferenceIdeal.τ Cert.ReferenceIdeal.sig (Elt Ideal)) (VK : Valuation Cert.KernelIdeal.τ Cert.KernelIdeal.sig (Elt Ideal))
    (h0 : VR (Proc.devRef .tc Cert.ReferenceIdeal.main_v142) = VK (Proc.devRef .tc Cert.KernelIdeal.main_v107))
    (h1 : VR (Proc.devRef .tc Cert.ReferenceIdeal.main_arg5) = VK (Proc.devRef .tc Cert.KernelIdeal.main_arg5)) :
    after (((Cert.ReferenceIdeal.ValueP.ops (F := Ideal)).take 227).drop 226) VR (Proc.devRef .tc Cert.ReferenceIdeal.main_v173) = ((Cert.KernelIdeal.GcnSim.op6).result VK) (Proc.devRef .tc Cert.KernelIdeal.main_v108) := by
  simp only [Cert.ReferenceIdeal.ValueP.ops, List.take_succ_cons, List.take_zero, List.drop_succ_cons, List.drop_zero]
  dsimp only [Cert.KernelIdeal.GcnSim.op6]
  eval_after
  rw [h0, h1]

  exact Cert.ReferenceIdeal.Stages.dotB _ _

/-- One stretch of the reference (the gather, scaling and scatter-add of the last convolution, its bias and the row log-softmax) against the kernel's host stretch and grid: from buffer contents that agree on what the
    stretch reads, the results agree. The reference's last step is a called function, read first over the contents
    its plain operations leave. -/
theorem stageA4 (VR : Valuation Cert.ReferenceIdeal.τ Cert.ReferenceIdeal.sig (Elt Ideal)) (VK : Valuation Cert.KernelIdeal.τ Cert.KernelIdeal.sig (Elt Ideal))
    (h0 : VR (Proc.devRef .tc Cert.ReferenceIdeal.main_v173) = VK (Proc.devRef .tc Cert.KernelIdeal.main_v108))
    (h1 : VR (Proc.devRef .tc Cert.ReferenceIdeal.main_v146) = VK (Proc.devRef .tc Cert.KernelIdeal.main_v65))
    (h2 : VR (Proc.devRef .tc Cert.ReferenceIdeal.main_v149) = VK (Proc.devRef .tc Cert.KernelIdeal.main_v68))
    (h3 : VR (Proc.devRef .tc Cert.ReferenceIdeal.main_v172) = VK (Proc.devRef .tc Cert.KernelIdeal.main_v91))
    (h4 : VR (Proc.devRef .tc Cert.ReferenceIdeal.main_arg6) = VK (Proc.devRef .tc Cert.KernelIdeal.main_arg6)) :
    after (((Cert.ReferenceIdeal.ValueP.ops (F := Ideal)).take 261).drop 246) (after (((Cert.ReferenceIdeal.ValueP.ops (F := Ideal)).take 246).drop 227) VR) (Proc.devRef .tc Cert.ReferenceIdeal.main_v190) = ((Cert.KernelIdeal.GcnSim.op7).result (after Cert.KernelIdeal.Gen.hostOps7 VK)) (Proc.devRef .tc Cert.KernelIdeal.main_v123) := by
  generalize hK : ((Cert.KernelIdeal.GcnSim.op7).result (after Cert.KernelIdeal.Gen.hostOps7 VK)) (Proc.devRef .tc Cert.KernelIdeal.main_v123) = kx
  generalize hV : after (((Cert.ReferenceIdeal.ValueP.ops (F := Ideal)).take 246).drop 227) VR = V'
  simp only [Cert.ReferenceIdeal.ValueP.ops, List.take_succ_cons, List.take_zero, List.drop_succ_cons, List.drop_zero]
  eval_after
  simp only [Cert.LibConcat.ofBuf_toBuf]
  dsimp only [TRef.toBuf, TRef.ofBuf, cast_eq]
  subst hV
  subst hK
  refine (Cert.ReferenceIdeal.Stages.lsm64 _).trans ?_
  refine congrArg (lsm (M := 100000) (N := 64)) ?_
  simp only [Cert.ReferenceIdeal.ValueP.ops, List.take_succ_cons, List.take_zero, List.drop_succ_cons, List.drop_zero]
  dsimp only [Cert.KernelIdeal.Gen.hostOps7, Cert.KernelIdeal.GcnSim.op7]
  eval_after
  rw [h0, h1, h2, h3, h4]
  refine (Cert.ReferenceIdeal.Stages.bias64 _ _).trans ?_
  refine Eq.trans ?_ (biasRow_shapeCast (M := 100000) (N := 64) _ _ _).symm
  refine congrArg (fun z => bias (M := 100000) (N := 64) z _) ?_
  rfl

end Cert.GcnBridge

end
-- ==== Proof.Nest.lean ====
/-
  The buffer contents at each segment boundary of the idealized kernel, written out as the fold, from the launch
  memory, of the host stretches and of the grids' operations up to that boundary.
-/
import proofs.«117535_j49795850830444_1_alg».proof.Proof.Sim

set_option maxRecDepth 16384

noncomputable section

namespace Cert.KernelIdeal.GcnSim

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The contents at boundary 4. -/
theorem nest4 (c : Dev nD) : W4 m ρ c = ((op0).result (after hostOps0_2 (after hostOps0_1 (after hostOps0 (W0 m ρ c))))) := by
  rw [step0 m ρ c]

/-- The contents at boundary 6. -/
theorem nest6 (c : Dev nD) : W6 m ρ c = ((op1).result (after hostOps1 ((op0).result (after hostOps0_2 (after hostOps0_1 (after hostOps0 (W0 m ρ c))))))) := by
  rw [step1 m ρ c]
  show ((op1).result (after hostOps1 (W4 m ρ c))) = _
  rw [step0 m ρ c]

/-- The contents at boundary 7. -/
theorem nest7 (c : Dev nD) : W7 m ρ c = ((op2).result ((op1).result (after hostOps1 ((op0).result (after hostOps0_2 (after hostOps0_1 (after hostOps0 (W0 m ρ c)))))))) := by
  rw [step2 m ρ c]
  rw [step1 m ρ c]
  show ((op2).result ((op1).result (after hostOps1 (W4 m ρ c)))) = _
  rw [step0 m ρ c]

/-- The contents at boundary 9. -/
theorem nest9 (c : Dev nD) : W9 m ρ c = ((op3).result (after hostOps3 ((op2).result ((op1).result (after hostOps1 ((op0).result (after hostOps0_2 (after hostOps0_1 (after hostOps0 (W0 m ρ c)))))))))) := by
  rw [step3 m ρ c]
  show ((op3).result (after hostOps3 (W7 m ρ c))) = _
  rw [step2 m ρ c]
  rw [step1 m ρ c]
  show ((op3).result (after hostOps3 ((op2).result ((op1).result (after hostOps1 (W4 m ρ c)))))) = _
  rw [step0 m ρ c]

/-- The contents at boundary 12. -/
theorem nest12 (c : Dev nD) : W12 m ρ c = (after hostOps4_2 (after hostOps4_1 (after hostOps4 ((op3).result (after hostOps3 ((op2).result ((op1).result (after hostOps1 ((op0).result (after hostOps0_2 (after hostOps0_1 (after hostOps0 (W0 m ρ c))))))))))))) := by
  show (after hostOps4_2 (after hostOps4_1 (after hostOps4 (W9 m ρ c)))) = _
  rw [step3 m ρ c]
  show (after hostOps4_2 (after hostOps4_1 (after hostOps4 ((op3).result (after hostOps3 (W7 m ρ c)))))) = _
  rw [step2 m ρ c]
  rw [step1 m ρ c]
  show (after hostOps4_2 (after hostOps4_1 (after hostOps4 ((op3).result (after hostOps3 ((op2).result ((op1).result (after hostOps1 (W4 m ρ c))))))))) = _
  rw [step0 m ρ c]

/-- The contents at boundary 13. -/
theorem nest13 (c : Dev nD) : W13 m ρ c = ((op4).result (after hostOps4_2 (after hostOps4_1 (after hostOps4 ((op3).result (after hostOps3 ((op2).result ((op1).result (after hostOps1 ((op0).result (after hostOps0_2 (after hostOps0_1 (after hostOps0 (W0 m ρ c)))))))))))))) := by
  rw [step4 m ρ c]
  show ((op4).result (after hostOps4_2 (after hostOps4_1 (after hostOps4 (W9 m ρ c))))) = _
  rw [step3 m ρ c]
  show ((op4).result (after hostOps4_2 (after hostOps4_1 (after hostOps4 ((op3).result (after hostOps3 (W7 m ρ c))))))) = _
  rw [step2 m ρ c]
  rw [step1 m ρ c]
  show ((op4).result (after hostOps4_2 (after hostOps4_1 (after hostOps4 ((op3).result (after hostOps3 ((op2).result ((op1).result (after hostOps1 (W4 m ρ c)))))))))) = _
  rw [step0 m ρ c]

/-- The contents at boundary 15. -/
theorem nest15 (c : Dev nD) : W15 m ρ c = ((op5).result (after hostOps5 ((op4).result (after hostOps4_2 (after hostOps4_1 (after hostOps4 ((op3).result (after hostOps3 ((op2).result ((op1).result (after hostOps1 ((op0).result (after hostOps0_2 (after hostOps0_1 (after hostOps0 (W0 m ρ c)))))))))))))))) := by
  rw [step5 m ρ c]
  show ((op5).result (after hostOps5 (W13 m ρ c))) = _
  rw [step4 m ρ c]
  show ((op5).result (after hostOps5 ((op4).result (after hostOps4_2 (after hostOps4_1 (after hostOps4 (W9 m ρ c))))))) = _
  rw [step3 m ρ c]
  show ((op5).result (after hostOps5 ((op4).result (after hostOps4_2 (after hostOps4_1 (after hostOps4 ((op3).result (after hostOps3 (W7 m ρ c))))))))) = _
  rw [step2 m ρ c]
  rw [step1 m ρ c]
  show ((op5).result (after hostOps5 ((op4).result (after hostOps4_2 (after hostOps4_1 (after hostOps4 ((op3).result (after hostOps3 ((op2).result ((op1).result (after hostOps1 (W4 m ρ c)))))))))))) = _
  rw [step0 m ρ c]

/-- The contents at boundary 16. -/
theorem nest16 (c : Dev nD) : W16 m ρ c = ((op6).result ((op5).result (after hostOps5 ((op4).result (after hostOps4_2 (after hostOps4_1 (after hostOps4 ((op3).result (after hostOps3 ((op2).result ((op1).result (after hostOps1 ((op0).result (after hostOps0_2 (after hostOps0_1 (after hostOps0 (W0 m ρ c))))))))))))))))) := by
  rw [step6 m ρ c]
  rw [step5 m ρ c]
  show ((op6).result ((op5).result (after hostOps5 (W13 m ρ c)))) = _
  rw [step4 m ρ c]
  show ((op6).result ((op5).result (after hostOps5 ((op4).result (after hostOps4_2 (after hostOps4_1 (after hostOps4 (W9 m ρ c)))))))) = _
  rw [step3 m ρ c]
  show ((op6).result ((op5).result (after hostOps5 ((op4).result (after hostOps4_2 (after hostOps4_1 (after hostOps4 ((op3).result (after hostOps3 (W7 m ρ c)))))))))) = _
  rw [step2 m ρ c]
  rw [step1 m ρ c]
  show ((op6).result ((op5).result (after hostOps5 ((op4).result (after hostOps4_2 (after hostOps4_1 (after hostOps4 ((op3).result (after hostOps3 ((op2).result ((op1).result (after hostOps1 (W4 m ρ c))))))))))))) = _
  rw [step0 m ρ c]

end Cert.KernelIdeal.GcnSim

end
-- ==== Proof.LibFold.lean ====
/-
  A general fact about a straight line of host operations: the contents the buffers hold after two lines run one
  after the other are what the second line makes of what the first line left.
-/
import Idealize.ShloMosaic.Lib.StableHlo.Run

noncomputable section

namespace Cert.LibFold

open Idealize.ShloMosaic Idealize.ShloMosaic.StableHlo

/-- The fold of two lines run one after the other is the fold of the second over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibFold

end
-- ==== Proof.RefPrefix.lean ====
/-
  The reference's buffer contents after its first n operations, and how a longer prefix continues a shorter one.
-/
import proofs.«117535_j49795850830444_1_alg».proof.Proof.RefRun
import proofs.«117535_j49795850830444_1_alg».proof.Proof.LibFold
import proofs.«117535_j49795850830444_1_alg».proof.Proof.LibConcat
import Idealize.ShloMosaic.PureOps.Ideal

set_option maxRecDepth 131072

noncomputable section

namespace Cert.GcnBridge

open Idealize.ShloMosaic Idealize.ShloMosaic.TcCoe Idealize.SL.Sem Idealize.ShloMosaic.StableHlo
open Cert.LibConcat

variable (m' : (ℓ : Loc Cert.ReferenceIdeal.nD Cert.ReferenceIdeal.τ Cert.ReferenceIdeal.sig) → Buf (Elt Ideal) ℓ) (c : Dev Cert.ReferenceIdeal.nD)

/-- The reference's buffer contents after its first n operations, from the launch memory. -/
def RV (n : Nat) : Valuation Cert.ReferenceIdeal.τ Cert.ReferenceIdeal.sig (Elt Ideal) :=
  after ((Cert.ReferenceIdeal.ValueP.ops (F := Ideal)).take n) (launchContents m' c)

/-- A longer prefix is the shorter one followed by the operations between the two. -/
theorem RV_split (n1 n2 : Nat) (h : n1 ≤ n2) :
    RV m' c n2 = after (((Cert.ReferenceIdeal.ValueP.ops (F := Ideal)).take n2).drop n1) (RV m' c n1) := by
  unfold RV
  rw [← Cert.LibFold.after_append]
  have e := List.take_append_drop n1 ((Cert.ReferenceIdeal.ValueP.ops (F := Ideal)).take n2)
  rw [List.take_take, Nat.min_eq_left h] at e
  rw [e]

/-- All 261 operations: the whole program. -/
theorem RV_all : RV m' c 261 = after (Cert.ReferenceIdeal.ValueP.ops (F := Ideal)) (launchContents m' c) := by
  unfold RV
  have e : (Cert.ReferenceIdeal.ValueP.ops (F := Ideal)).take 261 = Cert.ReferenceIdeal.ValueP.ops (F := Ideal) :=
    List.take_of_length_le (Nat.le_of_eq (by rfl))
  rw [e]

end Cert.GcnBridge

end
-- ==== Proof.Leaves1.lean ====
/-
  What the two programs hold, at matching points, in the buffers the next stretch reads besides the dense value: the
  edge sources and destinations with the self-loops appended, the symmetric degree normalization, and the weight and
  bias arguments. Each side is computed down to the arguments (the reference recomputes the normalization in every
  convolution, the kernel once per graph), where the two agree.
-/
import proofs.«117535_j49795850830444_1_alg».proof.Proof.Nest
import proofs.«117535_j49795850830444_1_alg».proof.Proof.RefPrefix
import proofs.«117535_j49795850830444_1_alg».proof.Proof.LibConcat

set_option maxRecDepth 131072

noncomputable section

namespace Cert.GcnBridge

open Idealize.ShloMosaic Idealize.ShloMosaic.TcCoe Idealize.SL.Sem Idealize.ShloMosaic.StableHlo
open Cert.Gcn Cert.LibConcat

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- After 40 operations the reference's `main_arg0` holds what the kernel's `main_arg0` holds at boundary 3: both computed
    down to the arguments. -/
theorem L1_x
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 40 (Proc.devRef .tc Cert.ReferenceIdeal.main_arg0) = Cert.KernelIdeal.Gen.W3 m ρ c (Proc.devRef .tc Cert.KernelIdeal.main_arg0) := by
  show RV m' c 40 (Proc.devRef .tc Cert.ReferenceIdeal.main_arg0) = (after Cert.KernelIdeal.Gen.hostOps0_2 (after Cert.KernelIdeal.Gen.hostOps0_1 (after Cert.KernelIdeal.Gen.hostOps0 (Cert.KernelIdeal.Gen.W0 m ρ c)))) (Proc.devRef .tc Cert.KernelIdeal.main_arg0)
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 40 operations the reference's `main_arg3` holds what the kernel's `main_arg3` holds at boundary 3: both computed
    down to the arguments. -/
theorem L1_w
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 40 (Proc.devRef .tc Cert.ReferenceIdeal.main_arg3) = Cert.KernelIdeal.Gen.W3 m ρ c (Proc.devRef .tc Cert.KernelIdeal.main_arg3) := by
  show RV m' c 40 (Proc.devRef .tc Cert.ReferenceIdeal.main_arg3) = (after Cert.KernelIdeal.Gen.hostOps0_2 (after Cert.KernelIdeal.Gen.hostOps0_1 (after Cert.KernelIdeal.Gen.hostOps0 (Cert.KernelIdeal.Gen.W0 m ρ c)))) (Proc.devRef .tc Cert.KernelIdeal.main_arg3)
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 41 operations the reference's `main_v3` holds what the kernel's `main_v3` holds at boundary 4: both computed
    down to the arguments. -/
theorem L2_s
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 41 (Proc.devRef .tc Cert.ReferenceIdeal.main_v3) = Cert.KernelIdeal.Gen.W4 m ρ c (Proc.devRef .tc Cert.KernelIdeal.main_v3) := by
  rw [Cert.KernelIdeal.GcnSim.nest4 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 41 operations the reference's `main_v6` holds what the kernel's `main_v6` holds at boundary 4: both computed
    down to the arguments. -/
theorem L2_d
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 41 (Proc.devRef .tc Cert.ReferenceIdeal.main_v6) = Cert.KernelIdeal.Gen.W4 m ρ c (Proc.devRef .tc Cert.KernelIdeal.main_v6) := by
  rw [Cert.KernelIdeal.GcnSim.nest4 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 41 operations the reference's `main_v29` holds what the kernel's `main_v29` holds at boundary 4: both computed
    down to the arguments. -/
theorem L2_n
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 41 (Proc.devRef .tc Cert.ReferenceIdeal.main_v29) = Cert.KernelIdeal.Gen.W4 m ρ c (Proc.devRef .tc Cert.KernelIdeal.main_v29) := by
  rw [Cert.KernelIdeal.GcnSim.nest4 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 41 operations the reference's `main_arg4` holds what the kernel's `main_arg4` holds at boundary 4: both computed
    down to the arguments. -/
theorem L2_b
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 41 (Proc.devRef .tc Cert.ReferenceIdeal.main_arg4) = Cert.KernelIdeal.Gen.W4 m ρ c (Proc.devRef .tc Cert.KernelIdeal.main_arg4) := by
  rw [Cert.KernelIdeal.GcnSim.nest4 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

end Cert.GcnBridge

end
-- ==== Proof.Leaves2.lean ====
/-
  What the two programs hold, at matching points, in the buffers the next stretch reads besides the dense value: the
  edge sources and destinations with the self-loops appended, the symmetric degree normalization, and the weight and
  bias arguments. Each side is computed down to the arguments (the reference recomputes the normalization in every
  convolution, the kernel once per graph), where the two agree.
-/
import proofs.«117535_j49795850830444_1_alg».proof.Proof.Nest
import proofs.«117535_j49795850830444_1_alg».proof.Proof.RefPrefix
import proofs.«117535_j49795850830444_1_alg».proof.Proof.LibConcat

set_option maxRecDepth 131072

noncomputable section

namespace Cert.GcnBridge

open Idealize.ShloMosaic Idealize.ShloMosaic.TcCoe Idealize.SL.Sem Idealize.ShloMosaic.StableHlo
open Cert.Gcn Cert.LibConcat

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- After 103 operations the reference's `main_arg5` holds what the kernel's `main_arg5` holds at boundary 6: both computed
    down to the arguments. -/
theorem L3_w
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 103 (Proc.devRef .tc Cert.ReferenceIdeal.main_arg5) = Cert.KernelIdeal.Gen.W6 m ρ c (Proc.devRef .tc Cert.KernelIdeal.main_arg5) := by
  rw [Cert.KernelIdeal.GcnSim.nest6 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 104 operations the reference's `main_v51` holds what the kernel's `main_v3` holds at boundary 7: both computed
    down to the arguments. -/
theorem L4_s
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 104 (Proc.devRef .tc Cert.ReferenceIdeal.main_v51) = Cert.KernelIdeal.Gen.W7 m ρ c (Proc.devRef .tc Cert.KernelIdeal.main_v3) := by
  rw [Cert.KernelIdeal.GcnSim.nest7 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 104 operations the reference's `main_v54` holds what the kernel's `main_v6` holds at boundary 7: both computed
    down to the arguments. -/
theorem L4_d
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 104 (Proc.devRef .tc Cert.ReferenceIdeal.main_v54) = Cert.KernelIdeal.Gen.W7 m ρ c (Proc.devRef .tc Cert.KernelIdeal.main_v6) := by
  rw [Cert.KernelIdeal.GcnSim.nest7 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 104 operations the reference's `main_v77` holds what the kernel's `main_v29` holds at boundary 7: both computed
    down to the arguments. -/
theorem L4_n
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 104 (Proc.devRef .tc Cert.ReferenceIdeal.main_v77) = Cert.KernelIdeal.Gen.W7 m ρ c (Proc.devRef .tc Cert.KernelIdeal.main_v29) := by
  rw [Cert.KernelIdeal.GcnSim.nest7 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 104 operations the reference's `main_arg6` holds what the kernel's `main_arg6` holds at boundary 7: both computed
    down to the arguments. -/
theorem L4_b
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 104 (Proc.devRef .tc Cert.ReferenceIdeal.main_arg6) = Cert.KernelIdeal.Gen.W7 m ρ c (Proc.devRef .tc Cert.KernelIdeal.main_arg6) := by
  rw [Cert.KernelIdeal.GcnSim.nest7 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

/-- After 163 operations the reference's `main_arg3` holds what the kernel's `main_arg3` holds at boundary 12: both computed
    down to the arguments. -/
theorem L5_w
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 163 (Proc.devRef .tc Cert.ReferenceIdeal.main_arg3) = Cert.KernelIdeal.Gen.W12 m ρ c (Proc.devRef .tc Cert.KernelIdeal.main_arg3) := by
  rw [Cert.KernelIdeal.GcnSim.nest12 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

end Cert.GcnBridge

end
-- ==== Proof.Leaves3.lean ====
/-
  What the two programs hold, at matching points, in the buffers the next stretch reads besides the dense value: the
  edge sources and destinations with the self-loops appended, the symmetric degree normalization, and the weight and
  bias arguments. Each side is computed down to the arguments (the reference recomputes the normalization in every
  convolution, the kernel once per graph), where the two agree.
-/
import proofs.«117535_j49795850830444_1_alg».proof.Proof.Nest
import proofs.«117535_j49795850830444_1_alg».proof.Proof.RefPrefix
import proofs.«117535_j49795850830444_1_alg».proof.Proof.LibConcat

set_option maxRecDepth 131072

noncomputable section

namespace Cert.GcnBridge

open Idealize.ShloMosaic Idealize.ShloMosaic.TcCoe Idealize.SL.Sem Idealize.ShloMosaic.StableHlo
open Cert.Gcn Cert.LibConcat

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
/-- After 164 operations the reference's `main_v98` holds what the kernel's `main_v65` holds at boundary 13: both computed
    down to the arguments. -/
theorem L6_s
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 164 (Proc.devRef .tc Cert.ReferenceIdeal.main_v98) = Cert.KernelIdeal.Gen.W13 m ρ c (Proc.devRef .tc Cert.KernelIdeal.main_v65) := by
  rw [Cert.KernelIdeal.GcnSim.nest13 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

set_option maxHeartbeats 8000000 in
/-- After 164 operations the reference's `main_v101` holds what the kernel's `main_v68` holds at boundary 13: both computed
    down to the arguments. -/
theorem L6_d
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 164 (Proc.devRef .tc Cert.ReferenceIdeal.main_v101) = Cert.KernelIdeal.Gen.W13 m ρ c (Proc.devRef .tc Cert.KernelIdeal.main_v68) := by
  rw [Cert.KernelIdeal.GcnSim.nest13 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

set_option maxHeartbeats 8000000 in
/-- After 164 operations the reference's `main_v124` holds what the kernel's `main_v91` holds at boundary 13: both computed
    down to the arguments. -/
theorem L6_n
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 164 (Proc.devRef .tc Cert.ReferenceIdeal.main_v124) = Cert.KernelIdeal.Gen.W13 m ρ c (Proc.devRef .tc Cert.KernelIdeal.main_v91) := by
  rw [Cert.KernelIdeal.GcnSim.nest13 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

set_option maxHeartbeats 8000000 in
/-- After 164 operations the reference's `main_arg4` holds what the kernel's `main_arg4` holds at boundary 13: both computed
    down to the arguments. -/
theorem L6_b
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 164 (Proc.devRef .tc Cert.ReferenceIdeal.main_arg4) = Cert.KernelIdeal.Gen.W13 m ρ c (Proc.devRef .tc Cert.KernelIdeal.main_arg4) := by
  rw [Cert.KernelIdeal.GcnSim.nest13 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

set_option maxHeartbeats 8000000 in
/-- After 226 operations the reference's `main_arg5` holds what the kernel's `main_arg5` holds at boundary 15: both computed
    down to the arguments. -/
theorem L7_w
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 226 (Proc.devRef .tc Cert.ReferenceIdeal.main_arg5) = Cert.KernelIdeal.Gen.W15 m ρ c (Proc.devRef .tc Cert.KernelIdeal.main_arg5) := by
  rw [Cert.KernelIdeal.GcnSim.nest15 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

end Cert.GcnBridge

end
-- ==== Proof.Leaves4.lean ====
/-
  What the two programs hold, at matching points, in the buffers the next stretch reads besides the dense value: the
  edge sources and destinations with the self-loops appended, the symmetric degree normalization, and the weight and
  bias arguments. Each side is computed down to the arguments (the reference recomputes the normalization in every
  convolution, the kernel once per graph), where the two agree.
-/
import proofs.«117535_j49795850830444_1_alg».proof.Proof.Nest
import proofs.«117535_j49795850830444_1_alg».proof.Proof.RefPrefix
import proofs.«117535_j49795850830444_1_alg».proof.Proof.LibConcat

set_option maxRecDepth 131072

noncomputable section

namespace Cert.GcnBridge

open Idealize.ShloMosaic Idealize.ShloMosaic.TcCoe Idealize.SL.Sem Idealize.ShloMosaic.StableHlo
open Cert.Gcn Cert.LibConcat

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
/-- After 227 operations the reference's `main_v146` holds what the kernel's `main_v65` holds at boundary 16: both computed
    down to the arguments. -/
theorem L8_s
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 227 (Proc.devRef .tc Cert.ReferenceIdeal.main_v146) = Cert.KernelIdeal.Gen.W16 m ρ c (Proc.devRef .tc Cert.KernelIdeal.main_v65) := by
  rw [Cert.KernelIdeal.GcnSim.nest16 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

set_option maxHeartbeats 8000000 in
/-- After 227 operations the reference's `main_v149` holds what the kernel's `main_v68` holds at boundary 16: both computed
    down to the arguments. -/
theorem L8_d
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 227 (Proc.devRef .tc Cert.ReferenceIdeal.main_v149) = Cert.KernelIdeal.Gen.W16 m ρ c (Proc.devRef .tc Cert.KernelIdeal.main_v68) := by
  rw [Cert.KernelIdeal.GcnSim.nest16 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

set_option maxHeartbeats 8000000 in
/-- After 227 operations the reference's `main_v172` holds what the kernel's `main_v91` holds at boundary 16: both computed
    down to the arguments. -/
theorem L8_n
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 227 (Proc.devRef .tc Cert.ReferenceIdeal.main_v172) = Cert.KernelIdeal.Gen.W16 m ρ c (Proc.devRef .tc Cert.KernelIdeal.main_v91) := by
  rw [Cert.KernelIdeal.GcnSim.nest16 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

set_option maxHeartbeats 8000000 in
/-- After 227 operations the reference's `main_arg6` holds what the kernel's `main_arg6` holds at boundary 16: both computed
    down to the arguments. -/
theorem L8_b
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6)) :
    RV m' c 227 (Proc.devRef .tc Cert.ReferenceIdeal.main_arg6) = Cert.KernelIdeal.Gen.W16 m ρ c (Proc.devRef .tc Cert.KernelIdeal.main_arg6) := by
  rw [Cert.KernelIdeal.GcnSim.nest16 m ρ c]
  unfold RV
  simp only [Cert.ReferenceIdeal.ValueP.ops, List.take_succ_cons, List.take_zero, List.drop_succ_cons, List.drop_zero]
  dsimp only [Cert.KernelIdeal.Gen.hostOps0, Cert.KernelIdeal.Gen.hostOps0_1, Cert.KernelIdeal.Gen.hostOps0_2, Cert.KernelIdeal.Gen.hostOps1, Cert.KernelIdeal.Gen.hostOps3, Cert.KernelIdeal.Gen.hostOps4, Cert.KernelIdeal.Gen.hostOps4_1, Cert.KernelIdeal.Gen.hostOps4_2, Cert.KernelIdeal.Gen.hostOps5, Cert.KernelIdeal.Gen.hostOps7, Cert.KernelIdeal.GcnSim.op0, Cert.KernelIdeal.GcnSim.op1, Cert.KernelIdeal.GcnSim.op2, Cert.KernelIdeal.GcnSim.op3, Cert.KernelIdeal.GcnSim.op4, Cert.KernelIdeal.GcnSim.op5, Cert.KernelIdeal.GcnSim.op6, Cert.KernelIdeal.GcnSim.op7]
  eval_after
  simp only [e0, e1, e2, e3, e4, e5, e6]
  try rfl

end Cert.GcnBridge

end
-- ==== Proof.Transport.lean ====
/-
  A dense value crosses the stretches that do not write it: on the reference's side the recomputation of the
  normalization before the next matrix product, on the kernel's side the second graph's normalization.
-/
import proofs.«117535_j49795850830444_1_alg».proof.Proof.Nest
import proofs.«117535_j49795850830444_1_alg».proof.Proof.RefPrefix
import proofs.«117535_j49795850830444_1_alg».proof.Proof.LibConcat

set_option maxRecDepth 131072

noncomputable section

namespace Cert.GcnBridge

open Idealize.ShloMosaic Idealize.ShloMosaic.TcCoe Idealize.SL.Sem Idealize.ShloMosaic.StableHlo
open Cert.Gcn Cert.LibConcat

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's `main_v47` is not written between its operations 63 and 103. -/
theorem TR1 : RV m' c 103 (Proc.devRef .tc Cert.ReferenceIdeal.main_v47) = RV m' c 63 (Proc.devRef .tc Cert.ReferenceIdeal.main_v47) := by
  rw [RV_split m' c 63 103 (by decide)]
  generalize RV m' c 63 = V
  simp only [Cert.ReferenceIdeal.ValueP.ops, List.take_succ_cons, List.take_zero, List.drop_succ_cons, List.drop_zero]
  eval_after

/-- The reference's `main_v94` is not written between its operations 123 and 163. -/
theorem TR2 : RV m' c 163 (Proc.devRef .tc Cert.ReferenceIdeal.main_v94) = RV m' c 123 (Proc.devRef .tc Cert.ReferenceIdeal.main_v94) := by
  rw [RV_split m' c 123 163 (by decide)]
  generalize RV m' c 123 = V
  simp only [Cert.ReferenceIdeal.ValueP.ops, List.take_succ_cons, List.take_zero, List.drop_succ_cons, List.drop_zero]
  eval_after

/-- The reference's `main_v142` is not written between its operations 186 and 226. -/
theorem TR3 : RV m' c 226 (Proc.devRef .tc Cert.ReferenceIdeal.main_v142) = RV m' c 186 (Proc.devRef .tc Cert.ReferenceIdeal.main_v142) := by
  rw [RV_split m' c 186 226 (by decide)]
  generalize RV m' c 186 = V
  simp only [Cert.ReferenceIdeal.ValueP.ops, List.take_succ_cons, List.take_zero, List.drop_succ_cons, List.drop_zero]
  eval_after

/-- The kernel's `main_v61` is not written by the second graph's normalization. -/
theorem TK : Cert.KernelIdeal.Gen.W12 m ρ c (Proc.devRef .tc Cert.KernelIdeal.main_v61) = Cert.KernelIdeal.Gen.W9 m ρ c (Proc.devRef .tc Cert.KernelIdeal.main_v61) := by
  show after Cert.KernelIdeal.Gen.hostOps4_2 (after Cert.KernelIdeal.Gen.hostOps4_1 (after Cert.KernelIdeal.Gen.hostOps4 (Cert.KernelIdeal.Gen.W9 m ρ c))) (Proc.devRef .tc Cert.KernelIdeal.main_v61) = _
  generalize Cert.KernelIdeal.Gen.W9 m ρ c = V
  dsimp only [Cert.KernelIdeal.Gen.hostOps4, Cert.KernelIdeal.Gen.hostOps4_1, Cert.KernelIdeal.Gen.hostOps4_2]
  eval_after

end Cert.GcnBridge

end
-- ==== Proof.Bridge.lean ====
/-
  The two idealized programs compute one function of the arguments: stretch by stretch the reference's dense value
  equals the kernel's, from the first matrix product to the final row log-softmax. Each step takes the previous
  dense value as it is and reads everything else the stretch needs (edge indices, normalization, weights, biases) down
  to the arguments, where the two programs agree.
-/
import proofs.«117535_j49795850830444_1_alg».proof.Proof.StagesAbs
import proofs.«117535_j49795850830444_1_alg».proof.Proof.StagesAbs2
import proofs.«117535_j49795850830444_1_alg».proof.Proof.Leaves1
import proofs.«117535_j49795850830444_1_alg».proof.Proof.Leaves2
import proofs.«117535_j49795850830444_1_alg».proof.Proof.Leaves3
import proofs.«117535_j49795850830444_1_alg».proof.Proof.Leaves4
import proofs.«117535_j49795850830444_1_alg».proof.Proof.Transport

set_option maxRecDepth 131072

noncomputable section

namespace Cert.GcnBridge

open Idealize.ShloMosaic Idealize.ShloMosaic.TcCoe Idealize.SL.Sem Idealize.ShloMosaic.StableHlo
open Cert.Gcn Cert.LibConcat

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

section Chain

variable
    (e0 : launchContents m' c (Proc.devRef .tc Cert.ReferenceIdeal.main_arg0) = Cert.KernelIdeal.Gen.W0 m ρ c (Proc.devRef .tc Cert.KernelIdeal.main_arg0))
    (e1 : launchContents m' c (Proc.devRef .tc Cert.ReferenceIdeal.main_arg1) = Cert.KernelIdeal.Gen.W0 m ρ c (Proc.devRef .tc Cert.KernelIdeal.main_arg1))
    (e2 : launchContents m' c (Proc.devRef .tc Cert.ReferenceIdeal.main_arg2) = Cert.KernelIdeal.Gen.W0 m ρ c (Proc.devRef .tc Cert.KernelIdeal.main_arg2))
    (e3 : launchContents m' c (Proc.devRef .tc Cert.ReferenceIdeal.main_arg3) = Cert.KernelIdeal.Gen.W0 m ρ c (Proc.devRef .tc Cert.KernelIdeal.main_arg3))
    (e4 : launchContents m' c (Proc.devRef .tc Cert.ReferenceIdeal.main_arg4) = Cert.KernelIdeal.Gen.W0 m ρ c (Proc.devRef .tc Cert.KernelIdeal.main_arg4))
    (e5 : launchContents m' c (Proc.devRef .tc Cert.ReferenceIdeal.main_arg5) = Cert.KernelIdeal.Gen.W0 m ρ c (Proc.devRef .tc Cert.KernelIdeal.main_arg5))
    (e6 : launchContents m' c (Proc.devRef .tc Cert.ReferenceIdeal.main_arg6) = Cert.KernelIdeal.Gen.W0 m ρ c (Proc.devRef .tc Cert.KernelIdeal.main_arg6))

include e0 e1 e2 e3 e4 e5 e6

/-- The first matrix product. -/
theorem C1 : RV m' c 41 (Proc.devRef .tc Cert.ReferenceIdeal.main_v30) = Cert.KernelIdeal.Gen.W4 m ρ c (Proc.devRef .tc Cert.KernelIdeal.main_v30) := by
  rw [RV_split m' c 40 41 (by decide), Cert.KernelIdeal.GcnSim.step0 m ρ c]
  exact stageD1 (RV m' c 40) (Cert.KernelIdeal.Gen.W3 m ρ c) (L1_x m ρ m' c e0 e1 e2 e3 e4 e5 e6) (L1_w m ρ m' c e0 e1 e2 e3 e4 e5 e6)

/-- The first convolution of the first graph, rectified. -/
theorem C2 : RV m' c 63 (Proc.devRef .tc Cert.ReferenceIdeal.main_v47) = Cert.KernelIdeal.Gen.W6 m ρ c (Proc.devRef .tc Cert.KernelIdeal.main_v45) := by
  rw [RV_split m' c 60 63 (by decide), RV_split m' c 41 60 (by decide), Cert.KernelIdeal.GcnSim.step1 m ρ c]
  exact stageA1 (RV m' c 41) (Cert.KernelIdeal.Gen.W4 m ρ c) (C1 m ρ m' c e0 e1 e2 e3 e4 e5 e6) (L2_s m ρ m' c e0 e1 e2 e3 e4 e5 e6) (L2_d m ρ m' c e0 e1 e2 e3 e4 e5 e6) (L2_n m ρ m' c e0 e1 e2 e3 e4 e5 e6) (L2_b m ρ m' c e0 e1 e2 e3 e4 e5 e6)

/-- The second matrix product. -/
theorem C3 : RV m' c 104 (Proc.devRef .tc Cert.ReferenceIdeal.main_v78) = Cert.KernelIdeal.Gen.W7 m ρ c (Proc.devRef .tc Cert.KernelIdeal.main_v46) := by
  rw [RV_split m' c 103 104 (by decide), Cert.KernelIdeal.GcnSim.step2 m ρ c]
  exact stageD2 (RV m' c 103) (Cert.KernelIdeal.Gen.W6 m ρ c) ((TR1 m' c).trans (C2 m ρ m' c e0 e1 e2 e3 e4 e5 e6)) (L3_w m ρ m' c e0 e1 e2 e3 e4 e5 e6)

/-- The second convolution of the first graph. -/
theorem C4 : RV m' c 123 (Proc.devRef .tc Cert.ReferenceIdeal.main_v94) = Cert.KernelIdeal.Gen.W9 m ρ c (Proc.devRef .tc Cert.KernelIdeal.main_v61) := by
  rw [RV_split m' c 104 123 (by decide), Cert.KernelIdeal.GcnSim.step3 m ρ c]
  exact stageA2 (RV m' c 104) (Cert.KernelIdeal.Gen.W7 m ρ c) (C3 m ρ m' c e0 e1 e2 e3 e4 e5 e6) (L4_s m ρ m' c e0 e1 e2 e3 e4 e5 e6) (L4_d m ρ m' c e0 e1 e2 e3 e4 e5 e6) (L4_n m ρ m' c e0 e1 e2 e3 e4 e5 e6) (L4_b m ρ m' c e0 e1 e2 e3 e4 e5 e6)

/-- The third matrix product. -/
theorem C5 : RV m' c 164 (Proc.devRef .tc Cert.ReferenceIdeal.main_v125) = Cert.KernelIdeal.Gen.W13 m ρ c (Proc.devRef .tc Cert.KernelIdeal.main_v92) := by
  rw [RV_split m' c 163 164 (by decide), Cert.KernelIdeal.GcnSim.step4 m ρ c]
  exact stageD3 (RV m' c 163) (Cert.KernelIdeal.Gen.W12 m ρ c) ((TR2 m' c).trans ((C4 m ρ m' c e0 e1 e2 e3 e4 e5 e6).trans (TK m ρ c).symm)) (L5_w m ρ m' c e0 e1 e2 e3 e4 e5 e6)

/-- The first convolution of the second graph, rectified. -/
theorem C6 : RV m' c 186 (Proc.devRef .tc Cert.ReferenceIdeal.main_v142) = Cert.KernelIdeal.Gen.W15 m ρ c (Proc.devRef .tc Cert.KernelIdeal.main_v107) := by
  rw [RV_split m' c 183 186 (by decide), RV_split m' c 164 183 (by decide), Cert.KernelIdeal.GcnSim.step5 m ρ c]
  exact stageA3 (RV m' c 164) (Cert.KernelIdeal.Gen.W13 m ρ c) (C5 m ρ m' c e0 e1 e2 e3 e4 e5 e6) (L6_s m ρ m' c e0 e1 e2 e3 e4 e5 e6) (L6_d m ρ m' c e0 e1 e2 e3 e4 e5 e6) (L6_n m ρ m' c e0 e1 e2 e3 e4 e5 e6) (L6_b m ρ m' c e0 e1 e2 e3 e4 e5 e6)

/-- The fourth matrix product. -/
theorem C7 : RV m' c 227 (Proc.devRef .tc Cert.ReferenceIdeal.main_v173) = Cert.KernelIdeal.Gen.W16 m ρ c (Proc.devRef .tc Cert.KernelIdeal.main_v108) := by
  rw [RV_split m' c 226 227 (by decide), Cert.KernelIdeal.GcnSim.step6 m ρ c]
  exact stageD4 (RV m' c 226) (Cert.KernelIdeal.Gen.W15 m ρ c) ((TR3 m' c).trans (C6 m ρ m' c e0 e1 e2 e3 e4 e5 e6)) (L7_w m ρ m' c e0 e1 e2 e3 e4 e5 e6)

/-- The last convolution and the row log-softmax. -/
theorem C8 : RV m' c 261 (Proc.devRef .tc Cert.ReferenceIdeal.main_v190) = Cert.KernelIdeal.Gen.W18 m ρ c (Proc.devRef .tc Cert.KernelIdeal.main_v123) := by
  rw [RV_split m' c 246 261 (by decide), RV_split m' c 227 246 (by decide), Cert.KernelIdeal.GcnSim.step7 m ρ c]
  exact stageA4 (RV m' c 227) (Cert.KernelIdeal.Gen.W16 m ρ c) (C7 m ρ m' c e0 e1 e2 e3 e4 e5 e6) (L8_s m ρ m' c e0 e1 e2 e3 e4 e5 e6) (L8_d m ρ m' c e0 e1 e2 e3 e4 e5 e6) (L8_n m ρ m' c e0 e1 e2 e3 e4 e5 e6) (L8_b m ρ m' c e0 e1 e2 e3 e4 e5 e6)

end Chain

/-- The reference's result, at arguments agreeing with the kernel's, is the kernel's result array at the last
    boundary. -/
theorem result_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    after (Cert.ReferenceIdeal.ValueP.ops (F := Ideal)) (launchContents m' c) (Proc.devRef .tc Cert.ReferenceIdeal.main_v190)
      = Cert.KernelIdeal.Gen.W18 m ρ c (Proc.devRef .tc Cert.KernelIdeal.main_v123) := by
  rw [← RV_all m' c]
  exact C8 m ρ m' c h0 h1 h2 h3 h4 h5 h6

end Cert.GcnBridge

end
-- ==== Proof.lean ====
/-
  The certificate of a two-graph graph-convolution network: on each graph two convolutions (the node features times a
  weight matrix; each edge's source row scaled by the symmetric degree normalization and added into its destination
  row, self-loops included; a bias), a rectifier after the first of each pair, and a row log-softmax at the end. The
  kernel tiles the four matrix products, the bias-and-rectifier steps and the final bias-and-log-softmax over blocks of
  5000 node rows and leaves the normalization, the gathers and the scatter-adds to the host; the reference does
  everything on the host. Read at the exact instance (floats as extended reals, the roundings to bf16 the identity)
  the two programs apply the same operations to the same arguments, so their results are equal entry by entry; no
  algebraic law beyond reading a tiled matrix product, a lane sum and a lane maximum as the corresponding whole-array
  sums and maxima is needed, and the finiteness of the inputs is never used.

  The three frames are the generated ones (the reference's is its run with the result dropped); the idealization
  rewrote nothing, so `preserves` is trivial; `algebraic` joins the kernel's run, whose result array is read at
  the last segment boundary, to the reference's run by the equality of the two result terms.
-/
import proofs.«117535_j49795850830444_1_alg».proof.Defs
import proofs.«117535_j49795850830444_1_alg».proof.Proof.Gen.Kernel
import proofs.«117535_j49795850830444_1_alg».proof.Proof.Gen.Kernel.Skeleton
import proofs.«117535_j49795850830444_1_alg».proof.Proof.Gen.Kernel.Launch
import proofs.«117535_j49795850830444_1_alg».proof.Proof.Gen.Kernel.Points
import proofs.«117535_j49795850830444_1_alg».proof.Proof.Gen.Kernel.Frame
import proofs.«117535_j49795850830444_1_alg».proof.Proof.Gen.KernelIdeal
import proofs.«117535_j49795850830444_1_alg».proof.Proof.Gen.KernelIdeal.Skeleton
import proofs.«117535_j49795850830444_1_alg».proof.Proof.Gen.KernelIdeal.Launch
import proofs.«117535_j49795850830444_1_alg».proof.Proof.Gen.KernelIdeal.Points
import proofs.«117535_j49795850830444_1_alg».proof.Proof.Gen.KernelIdeal.Frame
import proofs.«117535_j49795850830444_1_alg».proof.Proof.Gen.ReferenceIdeal
import proofs.«117535_j49795850830444_1_alg».proof.Proof.Gen.Pre_finite_inputs
import proofs.«117535_j49795850830444_1_alg».proof.Proof.KRun
import proofs.«117535_j49795850830444_1_alg».proof.Proof.RefRun
import proofs.«117535_j49795850830444_1_alg».proof.Proof.Bridge
import Idealize.ShloMosaic.Adequacy
import Idealize.ShloMosaic.Init

noncomputable section

namespace Cert.Proof

open Idealize.ShloMosaic Idealize.ShloMosaic.TcCoe Idealize.SL.Sem

namespace GcnClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the same result array: the kernel's at the last boundary's contents of its
    result buffer, the reference's at what its operations, folded from the launch memory, leave in its result buffer, which is that array
    when the arguments agree. -/
theorem algebraic : Cert.algebraic_KernelIdeal_ReferenceIdeal := by
  intro m ρ m' ρ' _ hagree
  refine ⟨fun c => Cert.KernelIdeal.Gen.W18 m ρ c (Proc.devRef .tc Cert.KernelIdeal.main_v123),
    Cert.KernelIdeal.GcnRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  exact Cert.GcnBridge.result_eq m ρ m' c h0 h1 h2 h3 h4 h5 h6

end GcnClaims

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, GcnClaims.preserves, GcnClaims.algebraic⟩

end Cert.Proof

end
